-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S800000x50 : Shape := ⟨2, ![800000, 50]⟩
abbrev S128x50 : Shape := ⟨2, ![128, 50]⟩
abbrev S128 : Shape := ⟨1, ![128]⟩
abbrev S128x128 : Shape := ⟨2, ![128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S800000x50 : S_.BroadcastsInDim S800000x50 (![] : Fin 0 → Fin S800000x50.rank)
  reducesTo_S800000x50_S_d0_1 : S800000x50.ReducesTo [0, 1] S_
  bcast_S_S128x50 : S_.BroadcastsInDim S128x50 (![] : Fin 0 → Fin S128x50.rank)
  reducesTo_S128x50_S_d0_1 : S128x50.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg8 : FVec F S128x128 .f32) (main_arg9 : FVec F S128x128 .f32) (main_arg10 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg5 : FVec F S128 .f32) (main_arg6 : FVec F S128x128 .f32) (main_arg7 : FVec F S128 .f32) (main_arg8 : FVec F S128x128 .f32) (main_arg9 : FVec F S128x128 .f32) (main_arg10 : FVec F S128 .f32) (main_v13 : IVec S_ 1) (main_v16 : IVec S128x50 1) : IVec S_ 1 :=
  let main_c_5 : IVec S_ 1 := constantI S_ 1 1#1
  let main_v17 : IVec S_ 1 := (fun x v => Host.reduce IntOp.andi x v reducesTo_S128x50_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_v33

def fn {F : FTy → Type} [FloatOps F] (main_arg0 : FVec F S50000x128 .f32) (main_arg1 : IVec S2x800000 32) (main_arg2 : FVec F S800000 .f32) (main_arg3 : FVec F S800000x50 .f32) (main_arg4 : FVec F S128x50 .f32) (main_arg5 : FVec F S128 .f32) (main_arg6 : FVec F S128x128 .f32) (main_arg7 : FVec F S128 .f32) (main_arg8 : FVec F S128x128 .f32) (main_arg9 : FVec F S128x128 .f32) (main_arg10 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S800000x50 .f32 := Host.absf main_arg3
  let main_cst_2 : FVec F S_ .f32 := constant S_ .f32 0x7F800000#32
  let main_v10 : FVec F S800000x50 .f32 := broadcastInDim S800000x50 ![] bcast_S_S800000x50 main_cst_2
  let main_v11 : IVec S800000x50 1 := cmpf .olt main_v9 main_v10
  let main_c_3 : IVec S_ 1 := constantI S_ 1 1#1
  let main_v12 : IVec S_ 1 := (fun x v => Host.reduce IntOp.andi x v reducesTo_S800000x50_S_d0_1 h_S_) main_v11 main_c_3
  let main_v13 : IVec S_ 1 := andi main_v8 main_v12
  let main_v14 : FVec F S128x50 .f32 := Host.absf main_arg4
  let main_cst_4 : FVec F S_ .f32 := constant S_ .f32 0x7F800000#32
  let main_v15 : FVec F S128x50 .f32 := broadcastInDim S128x50 ![] bcast_S_S128x50 main_cst_4
  let main_v16 : IVec S128x50 1 := cmpf .olt main_v14 main_v15
  fn_part1 (F := F) main_arg5 main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S800000x50 : Shape := ⟨2, ![800000, 50]⟩
abbrev S128x50 : Shape := ⟨2, ![128, 50]⟩
abbrev S128 : Shape := ⟨1, ![128]⟩
abbrev S128x128 : Shape := ⟨2, ![128, 128]⟩
abbrev S1x800000 : Shape := ⟨2, ![1, 800000]⟩
abbrev S50x128 : Shape := ⟨2, ![50, 128]⟩
abbrev S1x128 : Shape := ⟨2, ![1, 128]⟩
abbrev S800000x1 : Shape := ⟨2, ![800000, 1]⟩
abbrev S800000x128 : Shape := ⟨2, ![800000, 128]⟩
abbrev S6400x50 : Shape := ⟨2, ![6400, 50]⟩
abbrev S6400x1 : Shape := ⟨2, ![6400, 1]⟩
abbrev S6400x128 : Shape := ⟨2, ![6400, 128]⟩
abbrev S_ : Shape := ⟨0, ![]⟩
abbrev S5000x128 : Shape := ⟨2, ![5000, 128]⟩

abbrev nBuf : Space → Nat
  | .hbm => 42
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S800000x50, .f32⟩
  | .hbm, ⟨4, _⟩ => ⟨S128x50, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S50x128, .f32⟩
  | .hbm, ⟨16, _⟩ => ⟨S128x128, .f32⟩
  | .hbm, ⟨17, _⟩ => ⟨S1x128, .f32⟩
  | .hbm, ⟨18, _⟩ => ⟨S1x128, .f32⟩
  | .hbm, ⟨19, _⟩ => ⟨S800000x1, .f32⟩
  | .hbm, ⟨20, _⟩ => ⟨S800000x128, .f32⟩
  | .hbm, ⟨21, _⟩ => ⟨S128x128, .f32⟩
  | .hbm, ⟨22, _⟩ => ⟨S_, .f32⟩
  | .hbm, ⟨23, _⟩ => ⟨S1x128, .f32⟩
  | .hbm, ⟨24, _⟩ => ⟨S50000x128, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x128, .f32⟩
  | .hbm, ⟨34, _⟩ => ⟨S800000x128, .f32⟩
  | .hbm, ⟨35, _⟩ => ⟨S_, .f32⟩
  | .hbm, ⟨36, _⟩ => ⟨S50000x128, .f32⟩
  | .hbm, ⟨37, _⟩ => ⟨S800000x1, .i32⟩
  | .hbm, ⟨38, _⟩ => ⟨S50000x128, .f32⟩
  | .hbm, ⟨39, _⟩ => ⟨S128x128, .f32⟩
  | .hbm, ⟨40, _⟩ => ⟨S1x128, .f32⟩
  | .hbm, ⟨41, _⟩ => ⟨S50000x128, .f32⟩
  | .local _ .vmem, ⟨0, _⟩ => ⟨S6400x50, .f32⟩
  | .local _ .vmem, ⟨1, _⟩ => ⟨S6400x50, .f32⟩
  | .local _ .vmem, ⟨2, _⟩ => ⟨S6400x1, .f32⟩
  | .local _ .vmem, ⟨3, _⟩ => ⟨S6400x1, .f32⟩
  | .local _ .vmem, ⟨4, _⟩ => ⟨S50x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S6400x128, .f32⟩
  | .local _ .vmem, ⟨9, _⟩ => ⟨S6400x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_0 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_1 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x50 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S50x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S6400x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  transposes_S128x50_S50x128_1_0 : S128x50.Transposes [1, 0] S50x128
  transposes_S128x128_S128x128_1_0 : S128x128.Transposes [1, 0] S128x128
  shapeCasts_S128_S1x128 : S128.ShapeCasts S1x128
  shapeCasts_S800000_S800000x1 : S800000.ShapeCasts S800000x1
  inb_S6400x50_S6400x50_0_0 : ∀ a, (![0, 0] : Fin 2 → Nat) a + S6400x50.size a ≤ S6400x50.size a
  h_S6400x50 : 0 < S6400x50.numel
  bitsLt_bf16_f32 : FTy.bits .bf16 < FTy.bits .f32
  inb_S50x128_S50x128_0_0 : ∀ a, (![0, 0] : Fin 2 → Nat) a + S50x128.size a ≤ S50x128.size a
  h_S50x128 : 0 < S50x128.numel
  shapeCasts_S50x128_S50x128 : S50x128.ShapeCasts S50x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S6400x128 : S1x128.Broadcasts S6400x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S6400x1_S6400x1_0_0 : ∀ a, (![0, 0] : Fin 2 → Nat) a + S6400x1.size a ≤ S6400x1.size a
  h_S6400x1 : 0 < S6400x1.numel
  shapeCasts_S6400x1_S6400x1 : S6400x1.ShapeCasts S6400x1
  broadcasts_S6400x1_S6400x128 : S6400x1.Broadcasts S6400x128
  inb_S6400x128_S6400x128_0_0 : ∀ a, (![0, 0] : Fin 2 → Nat) a + S6400x128.size a ≤ S6400x128.size a
  h_S6400x128 : 0 < S6400x128.numel
  bcast_S_S1x128 : S_.BroadcastsInDim S1x128 (![] : Fin 0 → Fin S1x128.rank)
  inb_S5000x128_S5000x128_0_0 : ∀ a, (![0, 0] : Fin 2 → Nat) a + S5000x128.size a ≤ S5000x128.size a
  h_S5000x128 : 0 < S5000x128.numel
  broadcasts_S1x128_S5000x128 : S1x128.Broadcasts S5000x128
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  shapeCasts_S5000x128_S5000x128 : S5000x128.ShapeCasts S5000x128
  dot_S6400x50_S50x128_S6400x128_1_0_0_1_n_n_wf : DotDims.WF S6400x50 S50x128 S6400x128 [1] [0] [0] [1] [] []
  dot_S6400x128_S128x128_S6400x128_1_0_0_1_n_n_wf : DotDims.WF S6400x128 S128x128 S6400x128 [1] [0] [0] [1] [] []
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x50.size a ≤ S800000x50.size a
  hwx0_0 : ∀ i : grid0.Coords, EltTy.bits .f32 = 32 ∨ (Rect.block (s := S800000x50) S6400x50.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x1.size a ≤ S800000x1.size a
  hwx0_1 : ∀ i : grid0.Coords, EltTy.bits .f32 = 32 ∨ (Rect.block (s := S800000x1) S6400x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S50x128.size a ≤ S50x128.size a
  hwx0_2 : ∀ i : grid0.Coords, EltTy.bits .f32 = 32 ∨ (Rect.block (s := S50x128) S50x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S6400x128.size a ≤ S800000x128.size a
  hwx0_6 : ∀ i : grid0.Coords, EltTy.bits .f32 = 32 ∨ (Rect.block (s := S800000x128) S6400x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)

variable [Facts₀]

def dot_S6400x50_S50x128_S6400x128_1_0_0_1_n_n : DotDims S6400x50 S50x128 S6400x128 where
  lhsContracting := [1]
  rhsContracting := [0]
  lhsNonContracting := [0]
  rhsNonContracting := [1]
  lhsBatch := []
  rhsBatch := []
  wf := dot_S6400x50_S50x128_S6400x128_1_0_0_1_n_n_wf
def dot_S6400x128_S128x128_S6400x128_1_0_0_1_n_n : DotDims S6400x128 S128x128 S6400x128 where
  lhsContracting := [1]
  rhsContracting := [0]
  lhsNonContracting := [0]
  rhsNonContracting := [1]
  lhsBatch := []
  rhsBatch := []
  wf := dot_S6400x128_S128x128_S6400x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg3) S6400x50.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S6400x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S50x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S6400x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v11) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v23) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v24) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v25) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v26) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S800000x50 : Shape := ⟨2, ![800000, 50]⟩
abbrev S128x50 : Shape := ⟨2, ![128, 50]⟩
abbrev S128 : Shape := ⟨1, ![128]⟩
abbrev S128x128 : Shape := ⟨2, ![128, 128]⟩
abbrev S1x800000 : Shape := ⟨2, ![1, 800000]⟩
abbrev S_ : Shape := ⟨0, ![]⟩
abbrev S50x128 : Shape := ⟨2, ![50, 128]⟩
abbrev S800000x128 : Shape := ⟨2, ![800000, 128]⟩
abbrev S1x128 : Shape := ⟨2, ![1, 128]⟩
abbrev S800000x1 : Shape := ⟨2, ![800000, 1]⟩

abbrev nBuf : Space → Nat
  | .hbm => 93
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S800000x50, .f32⟩
  | .hbm, ⟨4, _⟩ => ⟨S128x50, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .f32⟩
  | .hbm, ⟨16, _⟩ => ⟨S800000, .f32⟩
  | .hbm, ⟨17, _⟩ => ⟨S800000, .f32⟩
  | .hbm, ⟨18, _⟩ => ⟨S800000, .f32⟩
  | .hbm, ⟨19, _⟩ => ⟨S_, .f32⟩
  | .hbm, ⟨20, _⟩ => ⟨S800000, .f32⟩
  | .hbm, ⟨21, _⟩ => ⟨S800000, .f32⟩
  | .hbm, ⟨22, _⟩ => ⟨S_, .f32⟩
  | .hbm, ⟨23, _⟩ => ⟨S800000, .f32⟩
  | .hbm, ⟨24, _⟩ => ⟨S800000, .f32⟩
  | .hbm, ⟨25, _⟩ => ⟨S50x128, .f32⟩
  | .hbm, ⟨26, _⟩ => ⟨S800000x128, .f32⟩
  | .hbm, ⟨27, _⟩ => ⟨S1x128, .f32⟩
  | .hbm, ⟨28, _⟩ => ⟨S800000x128, .f32⟩
  | .hbm, ⟨29, _⟩ => ⟨S800000x128, .f32⟩
  | .hbm, ⟨30, _⟩ => ⟨S_, .f32⟩
  | .hbm, ⟨31, _⟩ => ⟨S800000x128, .f32⟩
  | .hbm, ⟨32, _⟩ => ⟨S800000x128, .f32⟩
  | .hbm, ⟨33, _⟩ => ⟨S800000x128, .f32⟩
  | .hbm, ⟨34, _⟩ => ⟨S800000x128, .f32⟩
  | .hbm, ⟨35, _⟩ => ⟨S800000x128, .i1⟩
  | .hbm, ⟨36, _⟩ => ⟨S800000x128, .f32⟩
  | .hbm, ⟨37, _⟩ => ⟨S800000x128, .f32⟩
  | .hbm, ⟨38, _⟩ => ⟨S800000x128, .f32⟩
  | .hbm, ⟨39, _⟩ => ⟨S800000x128, .f32⟩
  | .hbm, ⟨40, _⟩ => ⟨S800000x128, .f32⟩
  | .hbm, ⟨41, _⟩ => ⟨S800000x128, .f32⟩
  | .hbm, ⟨42, _⟩ => ⟨S800000x128, .f32⟩
  | .hbm, ⟨43, _⟩ => ⟨S800000x128, .f32⟩
  | .hbm, ⟨44, _⟩ => ⟨S_, .f32⟩
  | .hbm, ⟨45, _⟩ => ⟨S800000x128, .f32⟩
  | .hbm, ⟨46, _⟩ => ⟨S800000x128, .f32⟩
  | .hbm, ⟨47, _⟩ => ⟨S128x128, .f32⟩
  | .hbm, ⟨48, _⟩ => ⟨S800000x128, .f32⟩
  | .hbm, ⟨49, _⟩ => ⟨S1x128, .f32⟩
  | .hbm, ⟨50, _⟩ => ⟨S800000x128, .f32⟩
  | .hbm, ⟨51, _⟩ => ⟨S800000x128, .f32⟩
  | .hbm, ⟨52, _⟩ => ⟨S800000x1, .f32⟩
  | .hbm, ⟨53, _⟩ => ⟨S800000x128, .f32⟩
  | .hbm, ⟨54, _⟩ => ⟨S800000x128, .f32⟩
  | .hbm, ⟨55, _⟩ => ⟨S128x128, .f32⟩
  | .hbm, ⟨56, _⟩ => ⟨S50000x128, .f32⟩
  | .hbm, ⟨57, _⟩ => ⟨S_, .i32⟩
  | .hbm, ⟨58, _⟩ => ⟨S800000, .i32⟩
  | .hbm, ⟨59, _⟩ => ⟨S800000, .i1⟩
  | .hbm, ⟨60, _⟩ => ⟨S_, .i32⟩
  | .hbm, ⟨61, _⟩ => ⟨S800000, .i32⟩
  | .hbm, ⟨62, _⟩ => ⟨S800000, .i32⟩
  | .hbm, ⟨63, _⟩ => ⟨S800000, .i32⟩
  | .hbm, ⟨64, _⟩ => ⟨S800000x1, .i32⟩
  | .hbm, ⟨65, _⟩ => ⟨S800000x128, .f32⟩
  | .hbm, ⟨66, _⟩ => ⟨S800000x128, .f32⟩
  | .hbm, ⟨67, _⟩ => ⟨S_, .f32⟩
  | .hbm, ⟨68, _⟩ => ⟨S50000x128, .f32⟩
  | .hbm, ⟨69, _⟩ => ⟨S800000x1, .i32⟩
  | .hbm, ⟨70, _⟩ => ⟨S50000x128, .f32⟩
  | .hbm, ⟨71, _⟩ => ⟨S128x128, .f32⟩
  | .hbm, ⟨72, _⟩ => ⟨S50000x128, .f32⟩
  | .hbm, ⟨73, _⟩ => ⟨S1x128, .f32⟩
  | .hbm, ⟨74, _⟩ => ⟨S50000x128, .f32⟩
  | .hbm, ⟨75, _⟩ => ⟨S50000x128, .f32⟩
  | .hbm, ⟨76, _⟩ => ⟨S_, .f32⟩
  | .hbm, ⟨77, _⟩ => ⟨S50000x128, .f32⟩
  | .hbm, ⟨78, _⟩ => ⟨S50000x128, .f32⟩
  | .hbm, ⟨79, _⟩ => ⟨S50000x128, .f32⟩
  | .hbm, ⟨80, _⟩ => ⟨S50000x128, .f32⟩
  | .hbm, ⟨81, _⟩ => ⟨S50000x128, .i1⟩
  | .hbm, ⟨82, _⟩ => ⟨S50000x128, .f32⟩
  | .hbm, ⟨83, _⟩ => ⟨S50000x128, .f32⟩
  | .hbm, ⟨84, _⟩ => ⟨S50000x128, .f32⟩
  | .hbm, ⟨85, _⟩ => ⟨S50000x128, .f32⟩
  | .hbm, ⟨86, _⟩ => ⟨S50000x128, .f32⟩
  | .hbm, ⟨87, _⟩ => ⟨S50000x128, .f32⟩
  | .hbm, ⟨88, _⟩ => ⟨S50000x128, .f32⟩
  | .hbm, ⟨89, _⟩ => ⟨S50000x128, .f32⟩
  | .hbm, ⟨90, _⟩ => ⟨S_, .f32⟩
  | .hbm, ⟨91, _⟩ => ⟨S50000x128, .f32⟩
  | .hbm, ⟨92, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_call0_cst : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_v6 : Ref sig .tc := ⟨.hbm, 37, rfl⟩
abbrev main_call0_v7 : Ref sig .tc := ⟨.hbm, 38, rfl⟩
abbrev main_call0_v8 : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_v16 : Ref sig .tc := ⟨.hbm, 43, rfl⟩
abbrev main_cst_2 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_c : Ref sig .tc := ⟨.hbm, 57, rfl⟩
abbrev main_v29 : Ref sig .tc := ⟨.hbm, 58, rfl⟩
abbrev main_v30 : Ref sig .tc := ⟨.hbm, 59, rfl⟩
abbrev main_c_3 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_cst_4 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_call1_cst : Ref sig .tc := ⟨.hbm, 76, rfl⟩
abbrev main_call1_v0 : Ref sig .tc := ⟨.hbm, 77, rfl⟩
abbrev main_call1_v1 : Ref sig .tc := ⟨.hbm, 78, rfl⟩
abbrev main_call1_v2 : Ref sig .tc := ⟨.hbm, 79, rfl⟩
abbrev main_call1_v3 : Ref sig .tc := ⟨.hbm, 80, rfl⟩
abbrev main_call1_v4 : Ref sig .tc := ⟨.hbm, 81, rfl⟩
abbrev main_call1_v5 : Ref sig .tc := ⟨.hbm, 82, rfl⟩
abbrev main_call1_v6 : Ref sig .tc := ⟨.hbm, 83, rfl⟩
abbrev main_call1_v7 : Ref sig .tc := ⟨.hbm, 84, rfl⟩
abbrev main_call1_v8 : Ref sig .tc := ⟨.hbm, 85, rfl⟩
abbrev main_call1_v9 : Ref sig .tc := ⟨.hbm, 86, rfl⟩
abbrev main_call1_v10 : Ref sig .tc := ⟨.hbm, 87, rfl⟩
abbrev main_call1_v11 : Ref sig .tc := ⟨.hbm, 88, rfl⟩
abbrev main_v45 : Ref sig .tc := ⟨.hbm, 89, rfl⟩
abbrev main_cst_5 : Ref sig .tc := ⟨.hbm, 90, rfl⟩
abbrev main_v46 : Ref sig .tc := ⟨.hbm, 91, rfl⟩
abbrev main_v47 : Ref sig .tc := ⟨.hbm, 92, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  transposes_S128x50_S50x128_1_0 : S128x50.Transposes [1, 0] S50x128
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  transposes_S128x128_S128x128_1_0 : S128x128.Transposes [1, 0] S128x128
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S1x128_S50000x128_0_1 : S1x128.BroadcastsInDim S50000x128 (![0, 1] : Fin 2 → Fin S50000x128.rank)
  dot_S800000x50_S50x128_S800000x128_1_0_0_1_n_n_wf : DotDims.WF S800000x50 S50x128 S800000x128 [1] [0] [0] [1] [] []
  dot_S800000x128_S128x128_S800000x128_1_0_0_1_n_n_wf : DotDims.WF S800000x128 S128x128 S800000x128 [1] [0] [0] [1] [] []
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def dot_S800000x50_S50x128_S800000x128_1_0_0_1_n_n : DotDims S800000x50 S50x128 S800000x128 where
  lhsContracting := [1]
  rhsContracting := [0]
  lhsNonContracting := [0]
  rhsNonContracting := [1]
  lhsBatch := []
  rhsBatch := []
  wf := dot_S800000x50_S50x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.KernelRun.lean ====
/-
  The idealized program's run, with its result named.

  @main is three pipelined regions among stretches of host operations.  The contents of every unscoped buffer at
  each boundary are a fold from the launch memory: a stretch applies its operations, a region replaces each of its
  arrays by what its write-backs leave.  Every weakly fair execution terminates with every unscoped buffer at the
  last fold; read at the result buffer this names the result, and read at an argument it walks back to the launch
  contents, since nothing writes an argument.
-/
import proofs.«139407_j51788715655492_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last fold's
    contents (what the third region's write-backs leave) and every argument array as launched. -/
theorem run_result : θ_run defs (onTc (τ := τ) (main (F := F))) ⟨m, fun _ => 0, ρ⟩ (fun r => ∀ c : Dev nD,
      r.2.mem ((c.tc : Thread nD τ).loc main_v26) = W6 m ρ c (Proc.devRef .tc main_v26)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v26 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)

end Cert.KernelIdeal.Run

end
-- ==== Proof.Entries.lean ====
/-
  The host stretches of the idealized program, read back.

  Before the filter region the program transposes the two filter weight matrices and recasts the two biases (128
  numbers as a 1×128 array) and the distances (800000 numbers as an 800000×1 column); the two index rows of the
  edge list are cut out and recast to vectors.  Before the projection region it transposes the projection matrix
  and makes a 1×128 bias of zeros.  Before the output region it gathers the projected rows at the source indices
  (an index below zero wrapped by the number of nodes), multiplies by the filters, scatter-adds the products at the
  destination indices into an array of zeros, transposes the output matrix and recasts the output bias.  No host
  operation and no region writes an argument, and a region writes only its own output array; so each buffer a
  region reads is one of these operations applied to arguments as launched, to an earlier region's output array,
  or to the index vectors.
-/
import Idealize.ShloMosaic.Lib.StableHlo.Run
import Idealize.ShloMosaic.PureOps.Ideal
import proofs.«139407_j51788715655492_1_alg».proof.Proof.Gen.KernelIdeal.Frame

set_option maxRecDepth 16384

noncomputable section

namespace Cert.KernelIdeal.Entries

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## The contents at launch and after the first stretch -/

/-- A buffer the first stretch does not write holds its launch contents when the filter region is entered. -/
theorem first_attr (c : Dev nD) : V1 m ρ c main_arg3 = m ((c : Thread nD τ).loc main_arg3) := by
  show StableHlo.after hostOps0 (W0 m ρ c) (Proc.devRef .tc main_arg3) = _
  after_results

theorem first_x (c : Dev nD) : W1 m ρ c (Proc.devRef .tc main_arg0) = m ((c : Thread nD τ).loc main_arg0) := by
  show StableHlo.after hostOps0 (W0 m ρ c) (Proc.devRef .tc main_arg0) = _
  after_results

theorem first_w8 (c : Dev nD) : W1 m ρ c (Proc.devRef .tc main_arg8) = m ((c : Thread nD τ).loc main_arg8) := by
  show StableHlo.after hostOps0 (W0 m ρ c) (Proc.devRef .tc main_arg8) = _
  after_results

theorem first_w9 (c : Dev nD) : W1 m ρ c (Proc.devRef .tc main_arg9) = m ((c : Thread nD τ).loc main_arg9) := by
  show StableHlo.after hostOps0 (W0 m ρ c) (Proc.devRef .tc main_arg9) = _
  after_results

theorem first_b10 (c : Dev nD) : W1 m ρ c (Proc.devRef .tc main_arg10) = m ((c : Thread nD τ).loc main_arg10) := by
  show StableHlo.after hostOps0 (W0 m ρ c) (Proc.devRef .tc main_arg10) = _
  after_results

/-- The distances as an 800000×1 column. -/
theorem first_dist (c : Dev nD) :
    V1 m ρ c main_v8 = shapeCast S800000x1 (m ((c : Thread nD τ).loc main_arg2)) shapeCasts_S800000_S800000x1 := by
  show StableHlo.after hostOps0 (W0 m ρ c) (Proc.devRef .tc main_v8) = _
  after_results
  rfl

/-- The first filter matrix, transposed. -/
theorem first_w1 (c : Dev nD) :
    V1 m ρ c main_v4 = transpose S50x128 [1, 0] (m ((c : Thread nD τ).loc main_arg4)) transposes_S128x50_S50x128_1_0 := by
  show StableHlo.after hostOps0 (W0 m ρ c) (Proc.devRef .tc main_v4) = _
  after_results

/-- The second filter matrix, transposed. -/
theorem first_w2 (c : Dev nD) :
    V1 m ρ c main_v5 = transpose S128x128 [1, 0] (m ((c : Thread nD τ).loc main_arg6)) transposes_S128x128_S128x128_1_0 := by
  show StableHlo.after hostOps0 (W0 m ρ c) (Proc.devRef .tc main_v5) = _
  after_results

/-- The two filter biases as 1×128 arrays. -/
theorem first_b1 (c : Dev nD) :
    V1 m ρ c main_v6 = shapeCast S1x128 (m ((c : Thread nD τ).loc main_arg5)) shapeCasts_S128_S1x128 := by
  show StableHlo.after hostOps0 (W0 m ρ c) (Proc.devRef .tc main_v6) = _
  after_results
  rfl

theorem first_b2 (c : Dev nD) :
    V1 m ρ c main_v7 = shapeCast S1x128 (m ((c : Thread nD τ).loc main_arg7)) shapeCasts_S128_S1x128 := by
  show StableHlo.after hostOps0 (W0 m ρ c) (Proc.devRef .tc main_v7) = _
  after_results
  rfl

/-- The source row of the edge list as a vector of 800000 indices. -/
def srcVec (c : Dev nD) : (⟨S800000, .i32⟩ : BufTy).Contents (Elt Ideal) :=
  shapeCast S800000 (extractStridedSlice S1x800000 ![0, 0] (m ((c : Thread nD τ).loc main_arg1)) slices_S2x800000_S1x800000_0_0)
    shapeCasts_S1x800000_S800000

/-- The destination row of the edge list as a vector of 800000 indices. -/
def dstVec (c : Dev nD) : (⟨S800000, .i32⟩ : BufTy).Contents (Elt Ideal) :=
  shapeCast S800000 (extractStridedSlice S1x800000 ![1, 0] (m ((c : Thread nD τ).loc main_arg1)) slices_S2x800000_S1x800000_1_0)
    shapeCasts_S1x800000_S800000

theorem first_src (c : Dev nD) : W1 m ρ c (Proc.devRef .tc main_v1) = srcVec m c := by
  show StableHlo.after hostOps0 (W0 m ρ c) (Proc.devRef .tc main_v1) = _
  after_results
  rfl

theorem first_dst (c : Dev nD) : W1 m ρ c (Proc.devRef .tc main_v3) = dstVec m c := by
  show StableHlo.after hostOps0 (W0 m ρ c) (Proc.devRef .tc main_v3) = _
  after_results
  rfl

/-! ## After the filter region and the second stretch -/

/-- The node features when the projection region is entered: as launched. -/
theorem second_x (c : Dev nD) : V3 m ρ c main_arg0 = m ((c : Thread nD τ).loc main_arg0) := by
  show StableHlo.after hostOps1 (W2 m ρ c) (Proc.devRef .tc main_arg0) = _
  after_results
  exact (W2_of_ne m ρ c main_arg0 (by decide)).trans (first_x m ρ c)

/-- The projection matrix, transposed. -/
theorem second_w (c : Dev nD) :
    V3 m ρ c main_v10 = transpose S128x128 [1, 0] (m ((c : Thread nD τ).loc main_arg8)) transposes_S128x128_S128x128_1_0 := by
  show StableHlo.after hostOps1 (W2 m ρ c) (Proc.devRef .tc main_v10) = _
  after_results
  exact congrArg (fun x => transpose S128x128 [1, 0] x transposes_S128x128_S128x128_1_0)
    ((W2_of_ne m ρ c main_arg8 (by decide)).trans (first_w8 m ρ c))

/-- The projection's bias: a 1×128 array of the zero word. -/
theorem second_b (c : Dev nD) :
    V3 m ρ c main_v11 = broadcastInDim S1x128 ![] bcast_S_S1x128 (constant (F := Ideal) S_ .f32 0x00000000#32) := by
  show StableHlo.after hostOps1 (W2 m ρ c) (Proc.devRef .tc main_v11) = _
  after_results

/-- The second stretch leaves the filter region's output array, the index vectors and the last two arguments alone. -/
theorem second_keeps_filters (c : Dev nD) : W3 m ρ c (Proc.devRef .tc main_v9) = W2 m ρ c (Proc.devRef .tc main_v9) := by
  show StableHlo.after hostOps1 (W2 m ρ c) (Proc.devRef .tc main_v9) = _
  after_results

theorem second_src (c : Dev nD) : W3 m ρ c (Proc.devRef .tc main_v1) = srcVec m c := by
  show StableHlo.after hostOps1 (W2 m ρ c) (Proc.devRef .tc main_v1) = _
  after_results
  exact (W2_of_ne m ρ c main_v1 (by decide)).trans (first_src m ρ c)

theorem second_dst (c : Dev nD) : W3 m ρ c (Proc.devRef .tc main_v3) = dstVec m c := by
  show StableHlo.after hostOps1 (W2 m ρ c) (Proc.devRef .tc main_v3) = _
  after_results
  exact (W2_of_ne m ρ c main_v3 (by decide)).trans (first_dst m ρ c)

theorem second_w9 (c : Dev nD) : W3 m ρ c (Proc.devRef .tc main_arg9) = m ((c : Thread nD τ).loc main_arg9) := by
  show StableHlo.after hostOps1 (W2 m ρ c) (Proc.devRef .tc main_arg9) = _
  after_results
  exact (W2_of_ne m ρ c main_arg9 (by decide)).trans (first_w9 m ρ c)

theorem second_b10 (c : Dev nD) : W3 m ρ c (Proc.devRef .tc main_arg10) = m ((c : Thread nD τ).loc main_arg10) := by
  show StableHlo.after hostOps1 (W2 m ρ c) (Proc.devRef .tc main_arg10) = _
  after_results
  exact (W2_of_ne m ρ c main_arg10 (by decide)).trans (first_b10 m ρ c)

/-! ## After the projection region and the third stretch -/

/-- The source indices as the gather takes them: an index below zero has the number of nodes added, and the vector
    is recast to an 800000×1 column. -/
def srcCol (c : Dev nD) : (⟨S800000x1, .i32⟩ : BufTy).Contents (Elt Ideal) :=
  broadcastInDim S800000x1 ![0] bcast_S800000_S800000x1_0
    (select (cmpi .slt (srcVec m c) (broadcastInDim S800000 ![] bcast_S_S800000 (constantI S_ 32 0#32)))
      (addi (srcVec m c) (broadcastInDim S800000 ![] bcast_S_S800000 (constantI S_ 32 50000#32))) (srcVec m c))

/-- The destination indices as the scatter takes them: an 800000×1 column. -/
def dstCol (c : Dev nD) : (⟨S800000x1, .i32⟩ : BufTy).Contents (Elt Ideal) :=
  broadcastInDim S800000x1 ![0] bcast_S800000_S800000x1_0 (dstVec m c)

/-- The aggregated messages when the output region is entered: the gather of the projection region's output array at
    the source indices, times the filter region's output array, scatter-added at the destination indices into zeros. -/
theorem third_agg (c : Dev nD) :
    V5 m ρ c main_v23
      = Host.scatterAdd scatter_S50000x128_S800000x1_S800000x128_1_0_0_1
          (broadcastInDim S50000x128 ![] bcast_S_S50000x128 (constant (F := Ideal) S_ .f32 0x00000000#32)) (dstCol m c)
          (mulf (Host.gather gather_S50000x128_S800000x1_S800000x128_1_0_n_n_0_1_1128 (W4 m ρ c (Proc.devRef .tc main_v12)) (srcCol m c))
            (W2 m ρ c (Proc.devRef .tc main_v9))) := by
  show StableHlo.after hostOps2 (W4 m ρ c) (Proc.devRef .tc main_v23) = _
  after_results
  rw [show W4 m ρ c (Proc.devRef .tc main_v1) = srcVec m c from (W4_of_ne m ρ c main_v1 (by decide)).trans (second_src m ρ c),
    show W4 m ρ c (Proc.devRef .tc main_v3) = dstVec m c from (W4_of_ne m ρ c main_v3 (by decide)).trans (second_dst m ρ c),
    show W4 m ρ c (Proc.devRef .tc main_v9) = W2 m ρ c (Proc.devRef .tc main_v9) from
      (W4_of_ne m ρ c main_v9 (by decide)).trans (second_keeps_filters m ρ c)]
  rfl

/-- The output matrix, transposed. -/
theorem third_w (c : Dev nD) :
    V5 m ρ c main_v24 = transpose S128x128 [1, 0] (m ((c : Thread nD τ).loc main_arg9)) transposes_S128x128_S128x128_1_0 := by
  show StableHlo.after hostOps2 (W4 m ρ c) (Proc.devRef .tc main_v24) = _
  after_results
  exact congrArg (fun x => transpose S128x128 [1, 0] x transposes_S128x128_S128x128_1_0)
    ((W4_of_ne m ρ c main_arg9 (by decide)).trans (second_w9 m ρ c))

/-- The output bias as a 1×128 array. -/
theorem third_b (c : Dev nD) :
    V5 m ρ c main_v25 = shapeCast S1x128 (m ((c : Thread nD τ).loc main_arg10)) shapeCasts_S128_S1x128 := by
  show StableHlo.after hostOps2 (W4 m ρ c) (Proc.devRef .tc main_v25) = _
  after_results
  rw [show W4 m ρ c (Proc.devRef .tc main_arg10) = m ((c : Thread nD τ).loc main_arg10) from
    (W4_of_ne m ρ c main_arg10 (by decide)).trans (second_b10 m ρ c)]
  rfl

end Cert.KernelIdeal.Entries

end
-- ==== Proof.LibRowDot.lean ====
/-
  A plain two-dimensional product read one entry at a time, at the exact (extended-real) values.

  For the dimension numbers of an M×K by K×N product (contract the left operand's axis 1 with the right
  operand's axis 0, no batch axis) the contraction's index set is one axis of extent K, so the entry (p, q) of the
  product is the sum over k < K of  l(p, k) · r(k, q):  row p of the left operand times the matrix r, at
  column q.  Stated once for every M, K, N, for the vector unit's matrix product into a zero accumulator and for
  the host's dot_general; both are that same sum, so a product computed block of rows by block of rows and a
  product computed whole agree entry by entry.
-/
import Idealize.ShloMosaic.Lib.ValueIdx
import Idealize.ShloMosaic.PureOps.Ideal.Laws

noncomputable section

open scoped BigOperators

namespace Cert.RowDot

open Idealize.ShloMosaic Idealize.ShloMosaic.ValueIdx

/-- Entry q of (row · W) for a K×N matrix W:  the sum over k of row(k) · W(k, q). -/
def rowDot {K N : Nat} (row : Fin K → EReal) (W : (⟨2, ![K, N]⟩ : Shape).Idx → EReal) (q : Fin N) : EReal :=
  ∑ k : Fin K, row k * W (ix2 k q)

/-- Row p of an M×K array, as a function of the column. -/
def rowOf {M K : Nat} (x : (⟨2, ![M, K]⟩ : Shape).Idx → EReal) (p : Fin M) : Fin K → EReal := fun k => x (ix2 p k)

/-- The contraction shape of a plain product is one axis. -/
theorem plain_rank (M K N : Nat) : (DotDims.plain M K N).contr.rank = 1 := rfl

/-- The left operand's index at output index j and contraction position u keeps j's row. -/
theorem plain_lhs0 {M K N : Nat} (j : (⟨2, ![M, N]⟩ : Shape).Idx) (u : (DotDims.plain M K N).contr.Idx) :
    ((DotDims.plain M K N).lhsIdx j u 0).val = (j 0).val := by
  unfold DotDims.lhsIdx
  rw [dif_neg (show ¬((0 : Fin (⟨2, ![M, K]⟩ : Shape).rank) ∈ (DotDims.plain M K N).lhsBatch) from List.not_mem_nil),
    dif_pos (show (0 : Fin (⟨2, ![M, K]⟩ : Shape).rank) ∈ (DotDims.plain M K N).lhsNonContracting from List.mem_singleton.mpr rfl)]
  rfl

/-- The left operand's column is the contraction position. -/
theorem plain_lhs1 {M K N : Nat} (j : (⟨2, ![M, N]⟩ : Shape).Idx) (u : (DotDims.plain M K N).contr.Idx) :
    ((DotDims.plain M K N).lhsIdx j u 1).val = (u ⟨0, by rw [plain_rank]; exact Nat.one_pos⟩).val :=
  (DotDims.plain M K N).lhsIdx_val_of_single rfl j u

/-- The right operand's row is the contraction position. -/
theorem plain_rhs0 {M K N : Nat} (j : (⟨2, ![M, N]⟩ : Shape).Idx) (u : (DotDims.plain M K N).contr.Idx) :
    ((DotDims.plain M K N).rhsIdx j u 0).val = (u ⟨0, by rw [plain_rank]; exact Nat.one_pos⟩).val :=
  (DotDims.plain M K N).rhsIdx_val_of_single rfl j u

/-- The right operand's index keeps j's column. -/
theorem plain_rhs1 {M K N : Nat} (j : (⟨2, ![M, N]⟩ : Shape).Idx) (u : (DotDims.plain M K N).contr.Idx) :
    ((DotDims.plain M K N).rhsIdx j u 1).val = (j 1).val := by
  unfold DotDims.rhsIdx
  rw [dif_neg (show ¬((1 : Fin (⟨2, ![K, N]⟩ : Shape).rank) ∈ (DotDims.plain M K N).rhsBatch) from List.not_mem_nil),
    dif_pos (show (1 : Fin (⟨2, ![K, N]⟩ : Shape).rank) ∈ (DotDims.plain M K N).rhsNonContracting from List.mem_singleton.mpr rfl)]
  rfl

/-- The contraction's sum of a plain product, re-indexed by k < K: row (j 0) of l times r, at column (j 1). -/
theorem plain_contr_sum {M K N : Nat} (l : (⟨2, ![M, K]⟩ : Shape).Idx → EReal) (r : (⟨2, ![K, N]⟩ : Shape).Idx → EReal)
    (j : (⟨2, ![M, N]⟩ : Shape).Idx) :
    ∑ u : (DotDims.plain M K N).contr.Idx, l ((DotDims.plain M K N).lhsIdx j u) * r ((DotDims.plain M K N).rhsIdx j u)
      = rowDot (rowOf l (j 0)) r (j 1) := by
  unfold rowDot rowOf
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact plain_lhs0 j _
      | ⟨1, _⟩ => exact (plain_lhs1 j _).trans hk)
  have er : (DotDims.plain M K N).rhsIdx j ((contrEquiv1 (DotDims.plain M K N) K rfl rfl).symm k) = ix2 k (j 1) :=
    funext fun a => Fin.ext (by
      match a with
      | ⟨0, _⟩ => exact (plain_rhs0 j _).trans hk
      | ⟨1, _⟩ => exact plain_rhs1 j _)
  exact congrArg₂ (fun a b : EReal => a * b) (congrArg l el) (congrArg r er)

/-- The vector unit's matrix product into the zero accumulator, at an entry. -/
theorem matmul_plain_zero_apply {M K N : Nat} {φ₁ φ₂ : FTy} (prec : Option ContractPrecision)
    (lhs : FVec Ideal (⟨2, ![M, K]⟩ : Shape) φ₁) (rhs : FVec Ideal (⟨2, ![K, N]⟩ : Shape) φ₂) (j : (⟨2, ![M, N]⟩ : Shape).Idx) :
    FloatOps.matmul (DotDims.plain M K N) prec lhs rhs (constant (F := Ideal) (⟨2, ![M, N]⟩ : Shape) .f32 0x00000000#32) j
      = rowDot (rowOf lhs (j 0)) rhs (j 1) := by
  rw [Ideal.matmul_constant_zero_apply]
  exact plain_contr_sum lhs rhs j

/-- The host's dot_general, at an entry. -/
theorem dotGeneral_plain_apply {M K N : Nat} {φ₁ φ₂ : FTy} (prec : Option ContractPrecision) (sched : HostSchedule)
    (lhs : FVec Ideal (⟨2, ![M, K]⟩ : Shape) φ₁) (rhs : FVec Ideal (⟨2, ![K, N]⟩ : Shape) φ₂) (j : (⟨2, ![M, N]⟩ : Shape).Idx) :
    FloatOps.dotGeneral (DotDims.plain M K N) prec sched lhs rhs j = rowDot (rowOf lhs (j 0)) rhs (j 1) := by
  rw [Ideal.dotGeneral_apply]
  exact plain_contr_sum lhs rhs j

end Cert.RowDot

end
-- ==== Proof.LibDense.lean ====
/-
  A dense layer read one entry at a time, at the exact (extended-real) values.

  A dense layer sends a row r of K numbers to the N numbers  (r · W)(q) + b(q),  W a K×N matrix and b a bias of N
  numbers; the rectifier then replaces each by its maximum with zero.  On the vector unit a block of M rows goes
  through the layer at once: the M×K block times W into a zero accumulator, plus the bias — kept as a 1×N array —
  spread over the M rows.  Entry (p, q) of that block is the layer applied to row p of the block, at q: rows do not
  mix.  Stated once for every M, K, N.
-/
import Idealize.ShloMosaic.Lib.ValueIdx
import Idealize.ShloMosaic.Lib.ValueLayout
import Idealize.ShloMosaic.Lib.Pipeline.Value
import Idealize.ShloMosaic.PureOps.Ideal.Laws
import proofs.«139407_j51788715655492_1_alg».proof.Proof.LibRowDot

noncomputable section

open scoped BigOperators

namespace Cert.Dense

open Idealize.ShloMosaic Idealize.ShloMosaic.ValueIdx Cert.RowDot

/-- A dense layer on one row: entry q is (row · W)(q) + b(q). -/
def dense {K N : Nat} (W : (⟨2, ![K, N]⟩ : Shape).Idx → EReal) (b : Fin N → EReal) (row : Fin K → EReal) : Fin N → EReal :=
  fun q => rowDot row W q + b q

/-- The rectifier of a row: each entry's maximum with the number the all-zero f32 word denotes. -/
def relu {N : Nat} (v : Fin N → EReal) : Fin N → EReal := fun q => max (v q) (Ideal.ofBits .f32 0x00000000#32)

/-- A bias kept as a 1×N array, as a function of the column. -/
def biasRow {N : Nat} (b : (⟨2, ![1, N]⟩ : Shape).Idx → EReal) : Fin N → EReal := fun q => b (ix2 (0 : Fin 1) q)

/-- A bias kept as a length-N array, as a function of the column. -/
def biasVec {N : Nat} (b : (⟨1, ![N]⟩ : Shape).Idx → EReal) : Fin N → EReal := fun q => b (ix1 q)

/-- A length-N bias recast as a 1×N array is the same bias. -/
theorem biasRow_shapeCast {N : Nat} (b : (⟨1, ![N]⟩ : Shape).Idx → EReal) (h : (⟨1, ![N]⟩ : Shape).ShapeCasts ⟨2, ![1, N]⟩) :
    biasRow (shapeCast ⟨2, ![1, N]⟩ b h) = biasVec b :=
  funext fun q => shapeCast_a_1a_apply b h 0 q

/-- The vector unit's product of a block of M rows with a recast K×N matrix into zero, at entry (p, q): row p times W. -/
theorem matmul_block_apply {M K N : Nat} {φ₁ φ₂ : FTy} (prec : Option ContractPrecision)
    (a : FVec Ideal (⟨2, ![M, K]⟩ : Shape) φ₁) (w : FVec Ideal (⟨2, ![K, N]⟩ : Shape) φ₂)
    (hw : (⟨2, ![K, N]⟩ : Shape).ShapeCasts ⟨2, ![K, N]⟩) (p : Fin M) (q : Fin N) :
    matmul (DotDims.plain M K N) prec a (shapeCast ⟨2, ![K, N]⟩ w hw)
        (constant (F := Ideal) ⟨2, ![M, N]⟩ .f32 0x00000000#32) (ix2 p q)
      = rowDot (rowOf a p) w q := by
  rw [shapeCast_self]
  exact matmul_plain_zero_apply prec a w (ix2 p q)

/-- The vector unit's layer on a block of M rows, at entry (p, q): the layer applied to row p of the block. -/
theorem dense_block_apply {M K N : Nat} {φ₁ φ₂ : FTy} (prec : Option ContractPrecision)
    (a : FVec Ideal (⟨2, ![M, K]⟩ : Shape) φ₁) (w : FVec Ideal (⟨2, ![K, N]⟩ : Shape) φ₂)
    (b : FVec Ideal (⟨2, ![1, N]⟩ : Shape) .f32)
    (hw : (⟨2, ![K, N]⟩ : Shape).ShapeCasts ⟨2, ![K, N]⟩)
    (hb : (⟨2, ![1, N]⟩ : Shape).ShapeCasts ⟨2, ![1, N]⟩) (hbc : (⟨2, ![1, N]⟩ : Shape).Broadcasts ⟨2, ![M, N]⟩)
    (p : Fin M) (q : Fin N) :
    addf (matmul (DotDims.plain M K N) prec a (shapeCast ⟨2, ![K, N]⟩ w hw)
        (constant (F := Ideal) ⟨2, ![M, N]⟩ .f32 0x00000000#32))
      (broadcastTo ⟨2, ![M, N]⟩ (shapeCast ⟨2, ![1, N]⟩ b hb) hbc) (ix2 p q)
      = dense w (biasRow b) (rowOf a p) q := by
  show matmul (DotDims.plain M K N) prec a (shapeCast ⟨2, ![K, N]⟩ w hw)
        (constant (F := Ideal) ⟨2, ![M, N]⟩ .f32 0x00000000#32) (ix2 p q)
      + broadcastTo ⟨2, ![M, N]⟩ (shapeCast ⟨2, ![1, N]⟩ b hb) hbc (ix2 p q) = _
  rw [matmul_block_apply, broadcastTo_1b_ab_apply, shapeCast_self]
  rfl

/-- The same with the rectifier and a change of float format after it (which keeps every value). -/
theorem relu_dense_block_apply {M K N : Nat} {φ₁ φ₂ ψ : FTy} (prec : Option ContractPrecision)
    (a : FVec Ideal (⟨2, ![M, K]⟩ : Shape) φ₁) (w : FVec Ideal (⟨2, ![K, N]⟩ : Shape) φ₂)
    (b : FVec Ideal (⟨2, ![1, N]⟩ : Shape) .f32)
    (hw : (⟨2, ![K, N]⟩ : Shape).ShapeCasts ⟨2, ![K, N]⟩)
    (hb : (⟨2, ![1, N]⟩ : Shape).ShapeCasts ⟨2, ![1, N]⟩) (hbc : (⟨2, ![1, N]⟩ : Shape).Broadcasts ⟨2, ![M, N]⟩)
    (hψ : ψ.bits < FTy.f32.bits) (p : Fin M) (q : Fin N) :
    (truncf ψ (maximumf (addf (matmul (DotDims.plain M K N) prec a (shapeCast ⟨2, ![K, N]⟩ w hw)
          (constant (F := Ideal) ⟨2, ![M, N]⟩ .f32 0x00000000#32))
        (broadcastTo ⟨2, ![M, N]⟩ (shapeCast ⟨2, ![1, N]⟩ b hb) hbc))
      (broadcast ⟨2, ![M, N]⟩ (Scalar.ofBits (F := Ideal) .f32 0x00000000#32))) hψ : FVec Ideal ⟨2, ![M, N]⟩ ψ) (ix2 p q)
      = relu (dense w (biasRow b) (rowOf a p)) q := by
  show max (addf (matmul (DotDims.plain M K N) prec a (shapeCast ⟨2, ![K, N]⟩ w hw)
          (constant (F := Ideal) ⟨2, ![M, N]⟩ .f32 0x00000000#32))
        (broadcastTo ⟨2, ![M, N]⟩ (shapeCast ⟨2, ![1, N]⟩ b hb) hbc) (ix2 p q)) (Ideal.ofBits .f32 0x00000000#32) = _
  rw [dense_block_apply]
  rfl

end Cert.Dense

end
-- ==== Proof.Spec.lean ====
/-
  A continuous-filter convolution layer, cut into its three dense stages, each read one entry at a time at the
  exact (extended-real) values.

  The layer sends node features x (one row of 128 numbers per node) and, per edge e, 50 edge attributes and a
  distance d(e), to new node features:

    filter   W(e, ·)  = ( ssp(attr(e) · W₁ + b₁) · W₂ + b₂ ) · cutoff(d(e))        one row of 128 numbers per edge
    project  xh(n, ·) = x(n, ·) · L₁                                              one row per node
    message  msg(e, ·) = xh(src e, ·) · W(e, ·),   agg(n, ·) = Σ_{e : dst e = n} msg(e, ·)
    output   out(n, ·) = ssp( agg(n, ·) · L₂ + c )

  where ssp(t) = softplus(t) − log 2 is the shifted softplus and cutoff(d) = ½ (cos(d · π/10) + 1).  The
  gather and the scatter-add of the message step are the same host operations in both programs and are never
  opened; this file states the other three stages.  Each acts on rows independently, so each is stated for an
  array of any number M of rows: the same definition then reads a block of rows and the whole array, and the
  value at (p, q) depends on the operands only through row p (the `_row` lemmas).
-/
import Idealize.ShloMosaic.Lib.ValueIdx
import Idealize.ShloMosaic.PureOps.Ideal.Laws
import proofs.«139407_j51788715655492_1_alg».proof.Proof.LibRowDot
import proofs.«139407_j51788715655492_1_alg».proof.Proof.LibDense

noncomputable section

open scoped BigOperators

namespace Cert.ContFilter

open Idealize.ShloMosaic Idealize.ShloMosaic.ValueIdx Cert.RowDot Cert.Dense

/-- The number the all-zero f32 word denotes. -/
abbrev zeroW : EReal := Ideal.ofBits .f32 0x00000000#32

/-- It is the real number zero. -/
theorem zeroW_eq : zeroW = 0 := Ideal.ofBits_zero_f32

/-- The shifted softplus  max(t, 0) + log(1 + e^{−|t|}) − log 2,  spelt as the logaddexp of t and 0 is
    computed: with d = t − 0, the guard "d ≠ d" (never true of an extended real) selecting t + 0, and −|d|
    written 0 − |d|;  log 2 is the f32 nearest it. -/
def ssp (t : EReal) : EReal :=
  Scalar.select (Ideal.cmp .one (t - zeroW) (t - zeroW)) (t + zeroW)
    (max t zeroW + Ideal.log1p (Ideal.exp (zeroW - max (t - zeroW) (-(t - zeroW))))) - Ideal.ofBits .f32 0x3F317218#32

/-- The same with −|d| written as a negation and the guard spelt "unordered or unequal": on the extended reals
    0 − a = −a, and the two guards are one comparison. -/
theorem ssp_neg_form (t : EReal) :
    Scalar.select (Ideal.cmp .une (t - zeroW) (t - zeroW)) (t + zeroW)
      (max t zeroW + Ideal.log1p (Ideal.exp (-(max (t - zeroW) (-(t - zeroW)))))) - Ideal.ofBits .f32 0x3F317218#32 = ssp t := by
  unfold ssp
  rw [show zeroW - max (t - zeroW) (-(t - zeroW)) = -(max (t - zeroW) (-(t - zeroW))) from by rw [zeroW_eq, zero_sub]]
  rfl

/-- The cosine cutoff  ½ · (cos(d · π/10) + 1),  π/10 the f32 nearest it. -/
def cutoff (d : EReal) : EReal :=
  Ideal.ofBits .f32 0x3F000000#32 * (Ideal.cos (d * Ideal.ofBits .f32 0x3EA0D97C#32) + Ideal.ofBits .f32 0x3F800000#32)

/-- The filter of one edge: its attributes through a dense layer, the shifted softplus, a second dense layer,
    times the cutoff of its distance. -/
def filterRow (w1 : (⟨2, ![50, 128]⟩ : Shape).Idx → EReal) (b1 : Fin 128 → EReal)
    (w2 : (⟨2, ![128, 128]⟩ : Shape).Idx → EReal) (b2 : Fin 128 → EReal) (attr : Fin 50 → EReal) (d : EReal) : Fin 128 → EReal :=
  fun q => dense w2 b2 (fun k => ssp (dense w1 b1 attr k)) q * cutoff d

/-- The filters of M edges: row p is the filter of the edge with attribute row p and distance dist(p). -/
def filterRows {M : Nat} (w1 : (⟨2, ![50, 128]⟩ : Shape).Idx → EReal) (b1 : Fin 128 → EReal)
    (w2 : (⟨2, ![128, 128]⟩ : Shape).Idx → EReal) (b2 : Fin 128 → EReal)
    (attr : (⟨2, ![M, 50]⟩ : Shape).Idx → EReal) (dist : Fin M → EReal) : (⟨2, ![M, 128]⟩ : Shape).Idx → EReal :=
  fun i => filterRow w1 b1 w2 b2 (rowOf attr (i 0)) (dist (i 0)) (i 1)

/-- M rows through a dense layer: row p goes to (row p · W)(q) + b(q). -/
def denseRows {M : Nat} (w : (⟨2, ![128, 128]⟩ : Shape).Idx → EReal) (b : Fin 128 → EReal)
    (x : (⟨2, ![M, 128]⟩ : Shape).Idx → EReal) : (⟨2, ![M, 128]⟩ : Shape).Idx → EReal :=
  fun i => dense w b (rowOf x (i 0)) (i 1)

/-- M rows through a plain product: row p goes to (row p · W)(q). -/
def plainRows {M : Nat} (w : (⟨2, ![128, 128]⟩ : Shape).Idx → EReal)
    (x : (⟨2, ![M, 128]⟩ : Shape).Idx → EReal) : (⟨2, ![M, 128]⟩ : Shape).Idx → EReal :=
  fun i => rowDot (rowOf x (i 0)) w (i 1)

/-- M rows through a dense layer and the shifted softplus. -/
def sspRows {M : Nat} (w : (⟨2, ![128, 128]⟩ : Shape).Idx → EReal) (b : Fin 128 → EReal)
    (x : (⟨2, ![M, 128]⟩ : Shape).Idx → EReal) : (⟨2, ![M, 128]⟩ : Shape).Idx → EReal :=
  fun i => ssp (dense w b (rowOf x (i 0)) (i 1))

/-- A dense layer whose bias is the zero word everywhere is the plain product: t + 0 = t on the extended reals. -/
theorem denseRows_zero_bias {M : Nat} (w : (⟨2, ![128, 128]⟩ : Shape).Idx → EReal)
    (x : (⟨2, ![M, 128]⟩ : Shape).Idx → EReal) : denseRows w (fun _ => zeroW) x = plainRows w x :=
  funext fun i => by
    show rowDot (rowOf x (i 0)) w (i 1) + zeroW = rowDot (rowOf x (i 0)) w (i 1)
    rw [zeroW_eq, add_zero]

/-! ### Rows do not mix: entry (p, q) of each stage sees its row operand only through row p -/

theorem filterRows_row {M M' : Nat} (w1 : (⟨2, ![50, 128]⟩ : Shape).Idx → EReal) (b1 : Fin 128 → EReal)
    (w2 : (⟨2, ![128, 128]⟩ : Shape).Idx → EReal) (b2 : Fin 128 → EReal)
    (attr : (⟨2, ![M, 50]⟩ : Shape).Idx → EReal) (dist : Fin M → EReal)
    (attr' : (⟨2, ![M', 50]⟩ : Shape).Idx → EReal) (dist' : Fin M' → EReal)
    (p : Fin M) (p' : Fin M') (q : Fin 128)
    (ha : ∀ k : Fin 50, attr (ix2 p k) = attr' (ix2 p' k)) (hd : dist p = dist' p') :
    filterRows w1 b1 w2 b2 attr dist (ix2 p q) = filterRows w1 b1 w2 b2 attr' dist' (ix2 p' q) := by
  show filterRow w1 b1 w2 b2 (rowOf attr p) (dist p) q = filterRow w1 b1 w2 b2 (rowOf attr' p') (dist' p') q
  rw [show rowOf attr p = rowOf attr' p' from funext ha, hd]

theorem denseRows_row {M M' : Nat} (w : (⟨2, ![128, 128]⟩ : Shape).Idx → EReal) (b : Fin 128 → EReal)
    (x : (⟨2, ![M, 128]⟩ : Shape).Idx → EReal) (x' : (⟨2, ![M', 128]⟩ : Shape).Idx → EReal)
    (p : Fin M) (p' : Fin M') (q : Fin 128) (hx : ∀ k : Fin 128, x (ix2 p k) = x' (ix2 p' k)) :
    denseRows w b x (ix2 p q) = denseRows w b x' (ix2 p' q) := by
  show dense w b (rowOf x p) q = dense w b (rowOf x' p') q
  rw [show rowOf x p = rowOf x' p' from funext hx]

theorem sspRows_row {M M' : Nat} (w : (⟨2, ![128, 128]⟩ : Shape).Idx → EReal) (b : Fin 128 → EReal)
    (x : (⟨2, ![M, 128]⟩ : Shape).Idx → EReal) (x' : (⟨2, ![M', 128]⟩ : Shape).Idx → EReal)
    (p : Fin M) (p' : Fin M') (q : Fin 128) (hx : ∀ k : Fin 128, x (ix2 p k) = x' (ix2 p' k)) :
    sspRows w b x (ix2 p q) = sspRows w b x' (ix2 p' q) := by
  show ssp (dense w b (rowOf x p) q) = ssp (dense w b (rowOf x' p') q)
  rw [show rowOf x p = rowOf x' p' from funext hx]

end Cert.ContFilter

end
-- ==== Proof.LibColumn.lean ====
/-
  A vector kept as a column, read one entry at a time.

  Summing an a×b array along its rows and keeping the axis gives an a×1 column; the column is then spread back over
  the b columns to scale each row.  Two index facts carry this:  a length-a vector recast as an a×1 column holds, at
  (i, 0), the vector's entry i;  and an a×1 column spread to a×b holds, at (p, c), the column's entry (p, 0), whatever
  the column c.  Both are stated for every a and b and for entries of any type.
-/
import Idealize.ShloMosaic.Lib.ValueIdx
import Idealize.ShloMosaic.Lib.Pipeline.Value

namespace Cert.Column

open Idealize.ShloMosaic Idealize.ShloMosaic.ValueIdx

variable {α : Type}

/-- A length-a vector recast as an a×1 column reads, at (i, u), the vector at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An a×1 column spread over b columns reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Column
-- ==== Proof.Bodies.lean ====
/-
  What each kernel body computes from the blocks it loads, as one function of those blocks.

  The first body takes a block of 6400 edges: their attribute rows times W₁ plus b₁, the shifted softplus, times
  W₂ plus b₂, and the result scaled row by row by the cutoff of the edge's distance — the distances arrive as a
  6400×1 column, and the column of cutoffs is spread over the 128 output columns.  The second and third bodies take
  a block of 5000 node rows through a dense layer (the third then applies the shifted softplus).  A change of float
  format keeps every value, a matrix recast to its own shape is itself, and a product into a zero accumulator is the
  plain product, so entry (p, q) of each body's stored value is the corresponding stage of the layer applied to row
  p of the block.
-/
import Idealize.ShloMosaic.Lib.ValueIdx
import Idealize.ShloMosaic.Lib.ValueLayout
import Idealize.ShloMosaic.Lib.Pipeline.Value
import Idealize.ShloMosaic.PureOps.Ideal.Laws
import proofs.«139407_j51788715655492_1_alg».proof.Proof.Gen.KernelIdeal.Skeleton
import proofs.«139407_j51788715655492_1_alg».proof.Proof.Spec
import proofs.«139407_j51788715655492_1_alg».proof.Proof.LibColumn

noncomputable section

namespace Cert.KernelIdeal.Bodies

open Cert.KernelIdeal Cert.KernelIdeal.Gen
open Idealize.ShloMosaic Idealize.ShloMosaic.ValueIdx Cert.RowDot Cert.Dense Cert.Column Cert.ContFilter

/-! ## The filter body -/

/-- The first dense layer and the shifted softplus on a block of 6400 attribute rows. -/
def hidden (x0 : FVec Ideal S6400x50 .f32) (x2 : FVec Ideal S50x128 .f32) (x3 : FVec Ideal S1x128 .f32) :
    FVec Ideal S6400x128 .f32 :=
  fun j => ssp (addf (matmul (φ₁ := .bf16) (φ₂ := .bf16) (DotDims.plain 6400 50 128) none x0 (shapeCast S50x128 x2 shapeCasts_S50x128_S50x128)
      (constant (F := Ideal) S6400x128 .f32 0x00000000#32))
    (broadcastTo S6400x128 (shapeCast S1x128 x3 shapeCasts_S1x128_S1x128) broadcasts_S1x128_S6400x128) j)

/-- Entry (p, k) of the hidden block: the shifted softplus of the first layer applied to attribute row p. -/
theorem hidden_apply (x0 : FVec Ideal S6400x50 .f32) (x2 : FVec Ideal S50x128 .f32) (x3 : FVec Ideal S1x128 .f32)
    (p : Fin 6400) (k : Fin 128) : hidden x0 x2 x3 (ix2 p k) = ssp (dense x2 (biasRow x3) (rowOf x0 p) k) :=
  congrArg ssp (dense_block_apply (φ₁ := .bf16) (φ₂ := .bf16) none x0 x2 x3 shapeCasts_S50x128_S50x128 shapeCasts_S1x128_S1x128
    broadcasts_S1x128_S6400x128 p k)

/-- The value before the cutoff is the second dense layer applied to the hidden block. -/
theorem lin_shape (x0 : Vec Ideal S6400x50 .f32) (x2 : Vec Ideal S50x128 .f32) (x3 : Vec Ideal S1x128 .f32)
    (x4 : Vec Ideal S128x128 .f32) (x5 : Vec Ideal S1x128 .f32) :
    k0_pay2 (F := Ideal) x0 x2 x3 x4 x5
      = addf (matmul (φ₁ := .bf16) (φ₂ := .bf16) (DotDims.plain 6400 128 128) none (hidden x0 x2 x3) (shapeCast S128x128 x4 shapeCasts_S128x128_S128x128)
          (constant (F := Ideal) S6400x128 .f32 0x00000000#32))
        (broadcastTo S6400x128 (shapeCast S1x128 x5 shapeCasts_S1x128_S1x128) broadcasts_S1x128_S6400x128) := rfl

/-- Entry (p, q) of it: the second layer applied to the hidden row p. -/
theorem lin_apply (x0 : Vec Ideal S6400x50 .f32) (x2 : Vec Ideal S50x128 .f32) (x3 : Vec Ideal S1x128 .f32)
    (x4 : Vec Ideal S128x128 .f32) (x5 : Vec Ideal S1x128 .f32) (p : Fin 6400) (q : Fin 128) :
    k0_pay2 (F := Ideal) x0 x2 x3 x4 x5 (ix2 p q)
      = dense x4 (biasRow x5) (fun k => ssp (dense x2 (biasRow x3) (rowOf x0 p) k)) q :=
  (congrFun (lin_shape x0 x2 x3 x4 x5) (ix2 p q)).trans
    ((dense_block_apply (φ₁ := .bf16) (φ₂ := .bf16) none (hidden x0 x2 x3) x4 x5 shapeCasts_S128x128_S128x128 shapeCasts_S1x128_S1x128
      broadcasts_S1x128_S6400x128 p q).trans
      (congrArg (fun r => dense x4 (biasRow x5) r q) (funext fun k => hidden_apply x0 x2 x3 p k)))

/-- The cosine of the scaled distance column at (p, 0). -/
theorem cos_apply (x1 : Vec Ideal S6400x1 .f32) (p : Fin 6400) :
    k0_pay3 (F := Ideal) x1 (ix2 p (0 : Fin 1)) = Ideal.cos (x1 (ix2 p (0 : Fin 1)) * Ideal.ofBits .f32 0x3EA0D97C#32) := by
  unfold k0_pay3
  show Ideal.cos (shapeCast S6400x1 x1 shapeCasts_S6400x1_S6400x1 (ix2 p (0 : Fin 1)) * Ideal.ofBits .f32 0x3EA0D97C#32) = _
  rw [shapeCast_self]

/-- Entry (p, q) of the stored value: the value before the cutoff times the cutoff column's entry (p, 0). -/
theorem scaled_apply (v34 : FVec Ideal S6400x128 .f32) (v39 : FVec Ideal S6400x1 .f32) (p : Fin 6400) (q : Fin 128) :
    k0_pay1 (F := Ideal) v34 v39 (Scalar.ofBits .f32 0x3F800000#32) (ix2 p q)
      = v34 (ix2 p q) * (Ideal.ofBits .f32 0x3F000000#32 * (v39 (ix2 p (0 : Fin 1)) + Ideal.ofBits .f32 0x3F800000#32)) := by
  unfold k0_pay1
  show v34 (ix2 p q) * broadcastTo S6400x128 (mulf (broadcast S6400x1 (Scalar.ofBits (F := Ideal) .f32 0x3F000000#32))
      (addf v39 (broadcast S6400x1 (Scalar.ofBits (F := Ideal) .f32 0x3F800000#32)))) broadcasts_S6400x1_S6400x128 (ix2 p q) = _
  rw [broadcastTo_a1_ab_apply]
  rfl

/-- The filter body's stored value is the filters of the block's 6400 edges. -/
theorem filter_body (x0 : Vec Ideal S6400x50 .f32) (x1 : Vec Ideal S6400x1 .f32) (x2 : Vec Ideal S50x128 .f32)
    (x3 : Vec Ideal S1x128 .f32) (x4 : Vec Ideal S128x128 .f32) (x5 : Vec Ideal S1x128 .f32) :
    k0_pay1 (F := Ideal) (k0_pay2 x0 x2 x3 x4 x5) (k0_pay3 x1) (Scalar.ofBits .f32 0x3F800000#32)
      = filterRows x2 (biasRow x3) x4 (biasRow x5) x0 (fun p : Fin 6400 => x1 (ix2 p (0 : Fin 1))) := by
  funext j
  obtain ⟨p, q, rfl⟩ : ∃ (p : Fin 6400) (q : Fin 128), j = ix2 p q := ⟨j 0, j 1, eq_ix2 j⟩
  rw [scaled_apply, lin_apply, cos_apply]
  rfl

/-! ## The two dense bodies -/

/-- The projection body's stored value: the block's 5000 rows through the dense layer. -/
theorem project_body (x0 : Vec Ideal S5000x128 .f32) (x1 : Vec Ideal S128x128 .f32) (x2 : Vec Ideal S1x128 .f32) :
    k1_pay1 (F := Ideal) x0 x1 x2 = denseRows x1 (biasRow x2) x0 := by
  funext j
  obtain ⟨p, q, rfl⟩ : ∃ (p : Fin 5000) (q : Fin 128), j = ix2 p q := ⟨j 0, j 1, eq_ix2 j⟩
  exact dense_block_apply (φ₁ := .bf16) (φ₂ := .bf16) none x0 x1 x2 shapeCasts_S128x128_S128x128 shapeCasts_S1x128_S1x128
    broadcasts_S1x128_S5000x128 p q

/-- The output body's stored value, with its operations grouped: the dense layer on the block, then the shifted softplus. -/
theorem output_shape (x0 : Vec Ideal S5000x128 .f32) (x1 : Vec Ideal S128x128 .f32) (x2 : Vec Ideal S1x128 .f32) :
    k2_pay1 (F := Ideal) x0 x1 x2
      = fun j => ssp (addf (matmul (φ₁ := .bf16) (φ₂ := .bf16) (DotDims.plain 5000 128 128) none (shapeCast S5000x128 x0 shapeCasts_S5000x128_S5000x128)
            (shapeCast S128x128 x1 shapeCasts_S128x128_S128x128) (constant (F := Ideal) S5000x128 .f32 0x00000000#32))
          (broadcastTo S5000x128 (shapeCast S1x128 x2 shapeCasts_S1x128_S1x128) broadcasts_S1x128_S5000x128) j) := rfl

/-- The output body's stored value: the block's 5000 rows through the dense layer and the shifted softplus. -/
theorem output_body (x0 : Vec Ideal S5000x128 .f32) (x1 : Vec Ideal S128x128 .f32) (x2 : Vec Ideal S1x128 .f32) :
    k2_pay1 (F := Ideal) x0 x1 x2 = sspRows x1 (biasRow x2) x0 := by
  rw [output_shape, shapeCast_self x0]
  funext j
  obtain ⟨p, q, rfl⟩ : ∃ (p : Fin 5000) (q : Fin 128), j = ix2 p q := ⟨j 0, j 1, eq_ix2 j⟩
  exact congrArg ssp (dense_block_apply (φ₁ := .bf16) (φ₂ := .bf16) none x0 x1 x2 shapeCasts_S128x128_S128x128 shapeCasts_S1x128_S1x128
    broadcasts_S1x128_S5000x128 p q)

end Cert.KernelIdeal.Bodies

end
-- ==== Proof.FilterRegion.lean ====
/-
  The filter region: what its output array holds after the run.

  The region's grid has 125 points; point t takes rows 6400·t … 6400·t + 6399 of the attribute array and of the
  distance column, the four weight and bias arrays whole, and writes back rows 6400·t … 6400·t + 6399 of the
  output.  What it writes is the filters of those 6400 edges, which depend on the attribute and distance arrays only
  through those rows; so the written block is the block of ONE whole-array function, the filters of all 800000
  edges.  The 125 row blocks tile the array (row r lies in block r / 6400), so after the run the array is that
  function — stated for any contents of the buffers at the region's entry.
-/
import Idealize.ShloMosaic.Lib.Pipeline.Value
import proofs.«139407_j51788715655492_1_alg».proof.Proof.Gen.KernelIdeal.Frame
import proofs.«139407_j51788715655492_1_alg».proof.Proof.Bodies

set_option maxRecDepth 16384

noncomputable section

namespace Cert.KernelIdeal.FilterRegion

open Cert.KernelIdeal Cert.KernelIdeal.Gen Cert.KernelIdeal.Bodies
open Idealize.ShloMosaic Idealize.ShloMosaic.TcCoe Idealize.SL.Sem Idealize.ShloMosaic.ValueIdx
open Cert.RowDot Cert.Dense Cert.ContFilter
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The filters of all 800000 edges, from the arrays as the region finds them: the transposed weights, the biases
    as 1×128 arrays, the attributes, the distances as an 800000×1 column. -/
def filters (c : Dev nD) : S800000x128.Idx → EReal :=
  filterRows (V c main_v4) (biasRow (V c main_v6)) (V c main_v5) (biasRow (V c main_v7)) (V c main_arg3)
    (fun e : Fin 800000 => V c main_v8 (ix2 e (0 : Fin 1)))

/-- The index maps over the grid: the attribute, distance and output windows are at row block t, the four
    parameter windows at their one block. -/
theorem index_maps : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row p of block t is row 6400·t + p of the array. -/
def rowAt (t : Fin cfg0.N) (p : Fin 6400) : Fin 800000 :=
  ⟨t.val * 6400 + p.val, by have h : t.val < 125 := t.isLt; have := p.isLt; omega⟩

/-! ## The blocks the body loads, read off the arrays -/

theorem weights1_block (c : Dev nD) (t : Fin cfg0.N) : iblk0 V c 2 t = V c main_v4 := by
  funext y
  show V c main_v4 (((cfg0.win 2).blk t).view.emb y) = V c main_v4 y
  obtain ⟨-, -, -, -, e0, e1, -⟩ := index_maps t
  refine congrArg _ (funext fun a => Fin.ext ?_)
  match a with
  | ⟨0, _⟩ => show win0_2.index t (0 : Fin 2) * 50 + 1 * (y 0).val = (y 0).val; omega
  | ⟨1, _⟩ => show win0_2.index t (1 : Fin 2) * 128 + 1 * (y 1).val = (y 1).val; omega

theorem bias1_block (c : Dev nD) (t : Fin cfg0.N) : iblk0 V c 3 t = V c main_v6 := by
  funext y
  show V c main_v6 (((cfg0.win 3).blk t).view.emb y) = V c main_v6 y
  obtain ⟨-, -, -, -, -, -, e0, e1, -⟩ := index_maps t
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 128 + 1 * (y 1).val = (y 1).val; omega

theorem weights2_block (c : Dev nD) (t : Fin cfg0.N) : iblk0 V c 4 t = V c main_v5 := by
  funext y
  show V c main_v5 (((cfg0.win 4).blk t).view.emb y) = V c main_v5 y
  obtain ⟨-, -, -, -, -, -, -, -, e0, e1, -⟩ := index_maps t
  refine congrArg _ (funext fun a => Fin.ext ?_)
  match a with
  | ⟨0, _⟩ => show win0_4.index t (0 : Fin 2) * 128 + 1 * (y 0).val = (y 0).val; omega
  | ⟨1, _⟩ => show win0_4.index t (1 : Fin 2) * 128 + 1 * (y 1).val = (y 1).val; omega

theorem bias2_block (c : Dev nD) (t : Fin cfg0.N) : iblk0 V c 5 t = V c main_v7 := by
  funext y
  show V c main_v7 (((cfg0.win 5).blk t).view.emb y) = V c main_v7 y
  obtain ⟨-, -, -, -, -, -, -, -, -, -, e0, e1, -⟩ := index_maps t
  refine congrArg _ (funext fun a => Fin.ext ?_)
  match a with
  | ⟨0, _⟩ => show win0_5.index t (0 : Fin 2) * 1 + 1 * (y 0).val = (y 0).val; omega
  | ⟨1, _⟩ => show win0_5.index t (1 : Fin 2) * 128 + 1 * (y 1).val = (y 1).val; omega

theorem attr_block (c : Dev nD) (t : Fin cfg0.N) (p : Fin 6400) (k : Fin 50) :
    iblk0 V c 0 t (ix2 p k) = V c main_arg3 (ix2 (rowAt t p) k) := by
  show V c main_arg3 (((cfg0.win 0).blk t).view.emb (ix2 p k)) = _
  obtain ⟨e0, e1, -⟩ := index_maps t
  refine congrArg _ (funext fun a => Fin.ext ?_)
  match a with
  | ⟨0, _⟩ => show win0_0.index t (0 : Fin 2) * 6400 + 1 * p.val = t.val * 6400 + p.val; omega
  | ⟨1, _⟩ => show win0_0.index t (1 : Fin 2) * 50 + 1 * k.val = k.val; omega

theorem dist_block (c : Dev nD) (t : Fin cfg0.N) (p : Fin 6400) :
    iblk0 V c 1 t (ix2 p (0 : Fin 1)) = V c main_v8 (ix2 (rowAt t p) (0 : Fin 1)) := by
  show V c main_v8 (((cfg0.win 1).blk t).view.emb (ix2 p (0 : Fin 1))) = _
  obtain ⟨-, -, e0, e1, -⟩ := index_maps t
  refine congrArg _ (funext fun a => Fin.ext ?_)
  match a with
  | ⟨0, _⟩ => show win0_1.index t (0 : Fin 2) * 6400 + 1 * p.val = t.val * 6400 + p.val; omega
  | ⟨1, _⟩ => show win0_1.index t (1 : Fin 2) * 1 + 1 * 0 = 0; omega

/-- Entry (p, q) of output block t sits at (6400·t + p, q) of the array. -/
theorem out_emb (t : Fin cfg0.N) (p : Fin 6400) (q : Fin 128) :
    ((cfg0.win 6).blk t).view.emb (ix2 p q) = ix2 (rowAt t p) q := by
  obtain ⟨-, -, -, -, -, -, -, -, -, -, -, -, e0, e1⟩ := index_maps t
  refine funext fun a => Fin.ext ?_
  match a with
  | ⟨0, _⟩ => show win0_6.index t (0 : Fin 2) * 6400 + 1 * p.val = t.val * 6400 + p.val; omega
  | ⟨1, _⟩ => show win0_6.index t (1 : Fin 2) * 128 + 1 * q.val = q.val; omega

/-! ## What a point writes back, and the array after the run -/

/-- What point t writes back is block t of the filters of all edges. -/
theorem flushed_eq (c : Dev nD) (t : Fin cfg0.N) :
    (dat0 V c).flushed 6 t = ((cfg0.win 6).blk t).view.read (Elt Ideal) (filters V c) := by
  show (cfg0.win 6).cut (grid0.coords t) ((dat0 V c).after 6 t) = _
  rw [after0_6]
  unfold out0_6
  rw [View.canon_unit_zero origin]
  simp only [View.ld_unit_zero (S := S6400x50) origin, View.ld_unit_zero (S := S6400x1) origin,
    View.ld_unit_zero (S := S50x128) origin, View.ld_unit_zero (S := S1x128) origin,
    View.ld_unit_zero (S := S128x128) origin]
  rw [filter_body, weights1_block, bias1_block, weights2_block, bias2_block]
  funext j
  obtain ⟨p, q, rfl⟩ : ∃ (p : Fin 6400) (q : Fin 128), j = ix2 p q := ⟨j 0, j 1, eq_ix2 j⟩
  show filterRows (V c main_v4) (biasRow (V c main_v6)) (V c main_v5) (biasRow (V c main_v7)) (iblk0 V c 0 t)
      (fun p : Fin 6400 => iblk0 V c 1 t (ix2 p (0 : Fin 1))) (ix2 p q)
    = filters V c (((cfg0.win 6).blk t).view.emb (ix2 p q))
  rw [out_emb]
  exact filterRows_row _ _ _ _ _ _ _ _ p (rowAt t p) q (fun k => attr_block V c t p k) (dist_block V c t p)

/-- An index of the array is in point t's block iff each coordinate is in the block's range on its axis. -/
theorem mem_block (t : Fin cfg0.N) (i : S800000x128.Idx) :
    i ∈ ((cfg0.win 6).blk t).view.set ↔ ∀ a : Fin 2, win0_6.index t a * S6400x128.size a ≤ (i a).val ∧ (i a).val < win0_6.index t a * S6400x128.size a + S6400x128.size a := by
  show i ∈ ((View.whole main_v9).slice (win0_6.rect t)).set ↔ _
  rw [View.set_slice_whole, Rect.mem_set_unit]
  exact Iff.rfl

/-- Every index of the array is in some point's block: row r is in block r / 6400. -/
theorem covered (i : S800000x128.Idx) :
    ∃ t : Fin cfg0.N, (cfg0.win 6).flush t = true ∧ i ∈ ((cfg0.win 6).blk t).view.set := by
  have hi0 : (i 0).val < 800000 := (i 0).isLt
  have hi1 : (i 1).val < 128 := (i 1).isLt
  let t : Fin cfg0.N := ⟨(i 0).val / 6400, by show (i 0).val / 6400 < 125; omega⟩
  obtain ⟨-, -, -, -, -, -, -, -, -, -, -, -, e0, e1⟩ := index_maps t
  have ht : t.val = (i 0).val / 6400 := rfl
  refine ⟨t, flush0_6 t, ?_⟩
  rw [mem_block]
  intro a
  match a with
  | ⟨0, _⟩ => show win0_6.index t (0 : Fin 2) * 6400 ≤ (i 0).val ∧ (i 0).val < win0_6.index t (0 : Fin 2) * 6400 + 6400; omega
  | ⟨1, _⟩ => show win0_6.index t (1 : Fin 2) * 128 ≤ (i 1).val ∧ (i 1).val < win0_6.index t (1 : Fin 2) * 128 + 128; omega

/-- The output array after the run: the filters of all 800000 edges. -/
theorem final (c : Dev nD) : (dat0 V c).arrAt 6 cfg0.N = filters V c :=
  (dat0 V c).arrAt_eq_of_cover 6 (filters V c) (fun t _ => flushed_eq V c t) covered

end Cert.KernelIdeal.FilterRegion

end
-- ==== Proof.ProjectRegion.lean ====
/-
  The projection region: what its output array holds after the run.

  The region's grid has 10 points.  Point t takes rows 5000·t … 5000·t + 4999 of the node-feature array together
  with the whole weight matrix and the whole bias row, and writes back rows 5000·t … 5000·t + 4999 of the output.
  What it writes is those 5000 rows sent through the dense layer.  A dense layer treats every row by itself, so
  row p of the written block is row 5000·t + p of ONE whole-array function: all 50000 node rows through the
  layer.  Ten blocks of 5000 rows tile the 50000 rows (row r lies in block r / 5000), so after the run the output
  array is that function — whatever the buffers hold when the region is entered.
-/
import Idealize.ShloMosaic.Lib.Pipeline.Value
import proofs.«139407_j51788715655492_1_alg».proof.Proof.Gen.KernelIdeal.Frame
import proofs.«139407_j51788715655492_1_alg».proof.Proof.Bodies

set_option maxRecDepth 16384

noncomputable section

namespace Cert.KernelIdeal.ProjectRegion

open Cert.KernelIdeal Cert.KernelIdeal.Gen Cert.KernelIdeal.Bodies
open Idealize.ShloMosaic Idealize.ShloMosaic.TcCoe Idealize.SL.Sem Idealize.ShloMosaic.ValueIdx
open Cert.RowDot Cert.Dense Cert.ContFilter
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- All 50000 node rows through the dense layer, from the arrays as the region finds them: the transposed
    weight, the bias as a 1×128 array, the node features. -/
def projected (c : Dev nD) : S50000x128.Idx → EReal :=
  denseRows (V c main_v10) (biasRow (V c main_v11)) (V c main_arg0)

/-- The index maps over the grid: the row window and the output window are at row block t, the weight and bias
    windows at their one block. -/
theorem index_maps : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row p of block t is row 5000·t + p of the array. -/
def rowAt (t : Fin cfg1.N) (p : Fin 5000) : Fin 50000 :=
  ⟨t.val * 5000 + p.val, by have h : t.val < 10 := t.isLt; have := p.isLt; omega⟩

/-! ## The blocks the body loads, read off the arrays -/

theorem weights_block (c : Dev nD) (t : Fin cfg1.N) : iblk1 V c 1 t = V c main_v10 := by
  funext y
  show V c main_v10 (((cfg1.win 1).blk t).view.emb y) = V c main_v10 y
  obtain ⟨-, -, e0, e1, -⟩ := index_maps t
  refine congrArg _ (funext fun a => Fin.ext ?_)
  match a with
  | ⟨0, _⟩ => show win1_1.index t (0 : Fin 2) * 128 + 1 * (y 0).val = (y 0).val; omega
  | ⟨1, _⟩ => show win1_1.index t (1 : Fin 2) * 128 + 1 * (y 1).val = (y 1).val; omega

theorem bias_block (c : Dev nD) (t : Fin cfg1.N) : iblk1 V c 2 t = V c main_v11 := by
  funext y
  show V c main_v11 (((cfg1.win 2).blk t).view.emb y) = V c main_v11 y
  obtain ⟨-, -, -, -, e0, e1, -⟩ := index_maps t
  refine congrArg _ (funext fun a => Fin.ext ?_)
  match a with
  | ⟨0, _⟩ => show win1_2.index t (0 : Fin 2) * 1 + 1 * (y 0).val = (y 0).val; omega
  | ⟨1, _⟩ => show win1_2.index t (1 : Fin 2) * 128 + 1 * (y 1).val = (y 1).val; omega

theorem rows_block (c : Dev nD) (t : Fin cfg1.N) (p : Fin 5000) (k : Fin 128) :
    iblk1 V c 0 t (ix2 p k) = V c main_arg0 (ix2 (rowAt t p) k) := by
  show V c main_arg0 (((cfg1.win 0).blk t).view.emb (ix2 p k)) = _
  obtain ⟨e0, e1, -⟩ := index_maps t
  refine congrArg _ (funext fun a => Fin.ext ?_)
  match a with
  | ⟨0, _⟩ => show win1_0.index t (0 : Fin 2) * 5000 + 1 * p.val = t.val * 5000 + p.val; omega
  | ⟨1, _⟩ => show win1_0.index t (1 : Fin 2) * 128 + 1 * k.val = k.val; omega

/-- Entry (p, q) of output block t sits at (5000·t + p, q) of the array. -/
theorem out_emb (t : Fin cfg1.N) (p : Fin 5000) (q : Fin 128) :
    ((cfg1.win 3).blk t).view.emb (ix2 p q) = ix2 (rowAt t p) q := by
  obtain ⟨-, -, -, -, -, -, e0, e1⟩ := index_maps t
  refine funext fun a => Fin.ext ?_
  match a with
  | ⟨0, _⟩ => show win1_3.index t (0 : Fin 2) * 5000 + 1 * p.val = t.val * 5000 + p.val; omega
  | ⟨1, _⟩ => show win1_3.index t (1 : Fin 2) * 128 + 1 * q.val = q.val; omega

/-! ## What a point writes back, and the array after the run -/

/-- What point t writes back is block t of the projection of all node rows. -/
theorem flushed_eq (c : Dev nD) (t : Fin cfg1.N) :
    (dat1 V c).flushed 3 t = ((cfg1.win 3).blk t).view.read (Elt Ideal) (projected V c) := by
  show (cfg1.win 3).cut (grid1.coords t) ((dat1 V c).after 3 t) = _
  rw [after1_3]
  unfold out1_3
  rw [View.canon_unit_zero origin]
  simp only [View.ld_unit_zero (S := S5000x128) origin, View.ld_unit_zero (S := S128x128) origin,
    View.ld_unit_zero (S := S1x128) origin]
  rw [project_body, weights_block, bias_block]
  funext j
  obtain ⟨p, q, rfl⟩ : ∃ (p : Fin 5000) (q : Fin 128), j = ix2 p q := ⟨j 0, j 1, eq_ix2 j⟩
  show denseRows (V c main_v10) (biasRow (V c main_v11)) (iblk1 V c 0 t) (ix2 p q)
    = projected V c (((cfg1.win 3).blk t).view.emb (ix2 p q))
  rw [out_emb]
  exact denseRows_row _ _ _ _ p (rowAt t p) q (fun k => rows_block V c t p k)

/-- An index of the array is in point t's block iff each coordinate is in the block's range on its axis. -/
theorem mem_block (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v12).slice (win1_3.rect t)).set ↔ _
  rw [View.set_slice_whole, Rect.mem_set_unit]
  exact Iff.rfl

/-- Every index of the array is in some point's block: row r is in block r / 5000. -/
theorem covered (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  let t : Fin cfg1.N := ⟨(i 0).val / 5000, by show (i 0).val / 5000 < 10; omega⟩
  obtain ⟨-, -, -, -, -, -, e0, e1⟩ := index_maps t
  have ht : t.val = (i 0).val / 5000 := rfl
  refine ⟨t, flush1_3 t, ?_⟩
  rw [mem_block]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- The output array after the run: all 50000 node rows through the dense layer. -/
theorem final (c : Dev nD) : (dat1 V c).arrAt 3 cfg1.N = projected V c :=
  (dat1 V c).arrAt_eq_of_cover 3 (projected V c) (fun t _ => flushed_eq V c t) covered

end Cert.KernelIdeal.ProjectRegion

end
-- ==== Proof.OutputRegion.lean ====
/-
  The output region: what its output array holds after the run.

  The region's grid has 10 points.  Point t takes rows 5000·t … 5000·t + 4999 of the aggregated-message array
  together with the whole weight matrix and the whole bias row, and writes back rows 5000·t … 5000·t + 4999 of the
  output.  What it writes is those 5000 rows sent through the dense layer and then, entry by entry, through the
  shifted softplus.  Both act on a row without looking at any other row, so row p of the written block is row
  5000·t + p of ONE whole-array function: all 50000 aggregated rows through the layer and the shifted softplus.
  Ten blocks of 5000 rows tile the 50000 rows (row r lies in block r / 5000), so after the run the output array is
  that function — whatever the buffers hold when the region is entered.
-/
import Idealize.ShloMosaic.Lib.Pipeline.Value
import proofs.«139407_j51788715655492_1_alg».proof.Proof.Gen.KernelIdeal.Frame
import proofs.«139407_j51788715655492_1_alg».proof.Proof.Bodies

set_option maxRecDepth 16384

noncomputable section

namespace Cert.KernelIdeal.OutputRegion

open Cert.KernelIdeal Cert.KernelIdeal.Gen Cert.KernelIdeal.Bodies
open Idealize.ShloMosaic Idealize.ShloMosaic.TcCoe Idealize.SL.Sem Idealize.ShloMosaic.ValueIdx
open Cert.RowDot Cert.Dense Cert.ContFilter
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- All 50000 aggregated rows through the dense layer and the shifted softplus, from the arrays as the region
    finds them: the transposed weight, the bias as a 1×128 array, the aggregated messages. -/
def output (c : Dev nD) : S50000x128.Idx → EReal :=
  sspRows (V c main_v24) (biasRow (V c main_v25)) (V c main_v23)

/-- The index maps over the grid: the row window and the output window are at row block t, the weight and bias
    windows at their one block. -/
theorem index_maps : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Row p of block t is row 5000·t + p of the array. -/
def rowAt (t : Fin cfg2.N) (p : Fin 5000) : Fin 50000 :=
  ⟨t.val * 5000 + p.val, by have h : t.val < 10 := t.isLt; have := p.isLt; omega⟩

/-! ## The blocks the body loads, read off the arrays -/

theorem weights_block (c : Dev nD) (t : Fin cfg2.N) : iblk2 V c 1 t = V c main_v24 := by
  funext y
  show V c main_v24 (((cfg2.win 1).blk t).view.emb y) = V c main_v24 y
  obtain ⟨-, -, e0, e1, -⟩ := index_maps t
  refine congrArg _ (funext fun a => Fin.ext ?_)
  match a with
  | ⟨0, _⟩ => show win2_1.index t (0 : Fin 2) * 128 + 1 * (y 0).val = (y 0).val; omega
  | ⟨1, _⟩ => show win2_1.index t (1 : Fin 2) * 128 + 1 * (y 1).val = (y 1).val; omega

theorem bias_block (c : Dev nD) (t : Fin cfg2.N) : iblk2 V c 2 t = V c main_v25 := by
  funext y
  show V c main_v25 (((cfg2.win 2).blk t).view.emb y) = V c main_v25 y
  obtain ⟨-, -, -, -, e0, e1, -⟩ := index_maps t
  refine congrArg _ (funext fun a => Fin.ext ?_)
  match a with
  | ⟨0, _⟩ => show win2_2.index t (0 : Fin 2) * 1 + 1 * (y 0).val = (y 0).val; omega
  | ⟨1, _⟩ => show win2_2.index t (1 : Fin 2) * 128 + 1 * (y 1).val = (y 1).val; omega

theorem rows_block (c : Dev nD) (t : Fin cfg2.N) (p : Fin 5000) (k : Fin 128) :
    iblk2 V c 0 t (ix2 p k) = V c main_v23 (ix2 (rowAt t p) k) := by
  show V c main_v23 (((cfg2.win 0).blk t).view.emb (ix2 p k)) = _
  obtain ⟨e0, e1, -⟩ := index_maps t
  refine congrArg _ (funext fun a => Fin.ext ?_)
  match a with
  | ⟨0, _⟩ => show win2_0.index t (0 : Fin 2) * 5000 + 1 * p.val = t.val * 5000 + p.val; omega
  | ⟨1, _⟩ => show win2_0.index t (1 : Fin 2) * 128 + 1 * k.val = k.val; omega

/-- Entry (p, q) of output block t sits at (5000·t + p, q) of the array. -/
theorem out_emb (t : Fin cfg2.N) (p : Fin 5000) (q : Fin 128) :
    ((cfg2.win 3).blk t).view.emb (ix2 p q) = ix2 (rowAt t p) q := by
  obtain ⟨-, -, -, -, -, -, e0, e1⟩ := index_maps t
  refine funext fun a => Fin.ext ?_
  match a with
  | ⟨0, _⟩ => show win2_3.index t (0 : Fin 2) * 5000 + 1 * p.val = t.val * 5000 + p.val; omega
  | ⟨1, _⟩ => show win2_3.index t (1 : Fin 2) * 128 + 1 * q.val = q.val; omega

/-! ## What a point writes back, and the array after the run -/

/-- What point t writes back is block t of the layer's output on all aggregated rows. -/
theorem flushed_eq (c : Dev nD) (t : Fin cfg2.N) :
    (dat2 V c).flushed 3 t = ((cfg2.win 3).blk t).view.read (Elt Ideal) (output V c) := by
  show (cfg2.win 3).cut (grid2.coords t) ((dat2 V c).after 3 t) = _
  rw [after2_3]
  unfold out2_3
  rw [View.canon_unit_zero origin]
  simp only [View.ld_unit_zero (S := S5000x128) origin, View.ld_unit_zero (S := S128x128) origin,
    View.ld_unit_zero (S := S1x128) origin]
  rw [output_body, weights_block, bias_block]
  funext j
  obtain ⟨p, q, rfl⟩ : ∃ (p : Fin 5000) (q : Fin 128), j = ix2 p q := ⟨j 0, j 1, eq_ix2 j⟩
  show sspRows (V c main_v24) (biasRow (V c main_v25)) (iblk2 V c 0 t) (ix2 p q)
    = output V c (((cfg2.win 3).blk t).view.emb (ix2 p q))
  rw [out_emb]
  exact sspRows_row _ _ _ _ p (rowAt t p) q (fun k => rows_block V c t p k)

/-- An index of the array is in point t's block iff each coordinate is in the block's range on its axis. -/
theorem mem_block (t : Fin cfg2.N) (i : S50000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v26).slice (win2_3.rect t)).set ↔ _
  rw [View.set_slice_whole, Rect.mem_set_unit]
  exact Iff.rfl

/-- Every index of the array is in some point's block: row r is in block r / 5000. -/
theorem covered (i : S50000x128.Idx) :
    ∃ t : Fin cfg2.N, (cfg2.win 3).flush t = true ∧ i ∈ ((cfg2.win 3).blk t).view.set := by
  have hi0 : (i 0).val < 50000 := (i 0).isLt
  have hi1 : (i 1).val < 128 := (i 1).isLt
  let t : Fin cfg2.N := ⟨(i 0).val / 5000, by show (i 0).val / 5000 < 10; omega⟩
  obtain ⟨-, -, -, -, -, -, e0, e1⟩ := index_maps t
  have ht : t.val = (i 0).val / 5000 := rfl
  refine ⟨t, flush2_3 t, ?_⟩
  rw [mem_block]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 128 ≤ (i 1).val ∧ (i 1).val < win2_3.index t (1 : Fin 2) * 128 + 128; omega

/-- The output array after the run: all 50000 aggregated rows through the dense layer and the shifted softplus. -/
theorem final (c : Dev nD) : (dat2 V c).arrAt 3 cfg2.N = output V c :=
  (dat2 V c).arrAt_eq_of_cover 3 (output V c) (fun t _ => flushed_eq V c t) covered

end Cert.KernelIdeal.OutputRegion

end
-- ==== Proof.Fold.lean ====
/-
  The idealized program's result, as one function of the arguments.

  The filter region's output array is the filters of all edges, computed from the transposed filter matrices, the
  biases and the distances; a bias recast as a 1×128 array and a distance vector recast as an 800000×1 column carry
  the same numbers.  The projection region's output array is every node row times the transposed projection matrix:
  its bias is zero.  The aggregated messages are the gather of the projected rows at the source indices, times the
  filters, scatter-added at the destination indices.  The output region's output array — the program's result — is
  the aggregated rows through the last dense layer and the shifted softplus.
-/
import Idealize.ShloMosaic.Lib.ValueLayout
import proofs.«139407_j51788715655492_1_alg».proof.Proof.Entries
import proofs.«139407_j51788715655492_1_alg».proof.Proof.FilterRegion
import proofs.«139407_j51788715655492_1_alg».proof.Proof.ProjectRegion
import proofs.«139407_j51788715655492_1_alg».proof.Proof.OutputRegion

set_option maxRecDepth 16384

noncomputable section

namespace Cert.KernelIdeal.Fold

open Cert.KernelIdeal Cert.KernelIdeal.Gen Cert.KernelIdeal.Entries
open Idealize.ShloMosaic Idealize.ShloMosaic.TcCoe Idealize.SL.Sem Idealize.ShloMosaic.ValueIdx
open Cert.RowDot Cert.Dense Cert.Column Cert.ContFilter

variable (m : (ℓ : Loc nD τ sig) → Buf (Elt Ideal) ℓ) (ρ : Dev nD → PrngReg)

/-- The filters of all edges, from the arguments. -/
def filtersOf (c : Dev nD) : FVec Ideal S800000x128 .f32 :=
  filterRows (transpose S50x128 [1, 0] (m ((c : Thread nD τ).loc main_arg4)) transposes_S128x50_S50x128_1_0)
    (biasVec (m ((c : Thread nD τ).loc main_arg5)))
    (transpose S128x128 [1, 0] (m ((c : Thread nD τ).loc main_arg6)) transposes_S128x128_S128x128_1_0)
    (biasVec (m ((c : Thread nD τ).loc main_arg7)))
    (m ((c : Thread nD τ).loc main_arg3)) (fun e : Fin 800000 => m ((c : Thread nD τ).loc main_arg2) (ix1 e))

/-- The projected node rows, from the arguments. -/
def projectedOf (c : Dev nD) : FVec Ideal S50000x128 .f32 :=
  plainRows (transpose S128x128 [1, 0] (m ((c : Thread nD τ).loc main_arg8)) transposes_S128x128_S128x128_1_0)
    (m ((c : Thread nD τ).loc main_arg0))

/-- The aggregated messages, from the arguments. -/
def aggOf (c : Dev nD) : FVec Ideal S50000x128 .f32 :=
  Host.scatterAdd (F := Ideal) (φ := .f32) scatter_S50000x128_S800000x1_S800000x128_1_0_0_1
    (broadcastInDim S50000x128 ![] bcast_S_S50000x128 (constant (F := Ideal) S_ .f32 0x00000000#32)) (dstCol m c)
    (mulf (F := Ideal) (φ := .f32)
      (Host.gather gather_S50000x128_S800000x1_S800000x128_1_0_n_n_0_1_1128 (projectedOf m c) (srcCol m c))
      (filtersOf m c))

/-- The layer's output, from the arguments. -/
def layerOf (c : Dev nD) : FVec Ideal S50000x128 .f32 :=
  sspRows (transpose S128x128 [1, 0] (m ((c : Thread nD τ).loc main_arg9)) transposes_S128x128_S128x128_1_0)
    (biasVec (m ((c : Thread nD τ).loc main_arg10))) (aggOf m c)

/-- The filter region's whole-array function at the contents the region is entered with. -/
theorem filters_eq (c : Dev nD) : FilterRegion.filters (V1 m ρ) c = filtersOf m c := by
  unfold FilterRegion.filters filtersOf
  rw [first_w1, first_b1, first_w2, first_b2, first_attr, first_dist, biasRow_shapeCast, biasRow_shapeCast]
  exact congrArg (filterRows _ _ _ _ _) (funext fun e => shapeCast_a_a1_apply _ _ e (0 : Fin 1))

/-- A 1×128 array of the zero word is the zero bias. -/
theorem zero_bias : biasRow (broadcastInDim S1x128 ![] bcast_S_S1x128 (constant (F := Ideal) S_ .f32 0x00000000#32))
    = fun _ : Fin 128 => zeroW := rfl

/-- The projection region's whole-array function at the contents the region is entered with. -/
theorem projected_eq (c : Dev nD) : ProjectRegion.projected (V3 m ρ) c = projectedOf m c := by
  unfold ProjectRegion.projected projectedOf
  rw [second_w, second_b, second_x, zero_bias]
  exact denseRows_zero_bias _ _

/-- The filter region's output array after the run of the region. -/
theorem filters_array (c : Dev nD) : W2 m ρ c (Proc.devRef .tc main_v9) = filtersOf m c :=
  (W2_arr m ρ c 6).trans ((FilterRegion.final (V1 m ρ) c).trans (filters_eq m ρ c))

/-- The projection region's output array after the run of the region. -/
theorem projected_array (c : Dev nD) : W4 m ρ c (Proc.devRef .tc main_v12) = projectedOf m c :=
  (W4_arr m ρ c 3).trans ((ProjectRegion.final (V3 m ρ) c).trans (projected_eq m ρ c))

/-- The output region's whole-array function at the contents the region is entered with. -/
theorem output_eq (c : Dev nD) : OutputRegion.output (V5 m ρ) c = layerOf m c := by
  unfold OutputRegion.output layerOf aggOf
  rw [third_w, third_b, third_agg, filters_array, projected_array, biasRow_shapeCast]

/-- The result buffer after the whole run. -/
theorem result_eq (c : Dev nD) : W6 m ρ c (Proc.devRef .tc main_v26) = layerOf m c :=
  (W6_arr m ρ c 3).trans ((OutputRegion.final (V5 m ρ) c).trans (output_eq m ρ c))

end Cert.KernelIdeal.Fold

end
-- ==== Proof.RefStages.lean ====
/-
  The reference program's three dense stages, read one entry at a time at the exact (extended-real) values.

  Each stage of the reference is a chain of whole-array operations: a matrix product, a bias spread over the
  rows, a pointwise function.  Read at the entry (p, q), the matrix product is row p of its left operand times
  the right operand at column q, the spread bias is the bias at q, and a pointwise function acts on the entry
  alone; so each stage is the row-wise stage of the specification.  The transposed weight matrices stay as
  they are: they are the right operands of the products, and nothing here looks inside them.
-/
import proofs.«139407_j51788715655492_1_alg».proof.Proof.Gen.ReferenceIdeal.Read
import proofs.«139407_j51788715655492_1_alg».proof.Proof.Spec

noncomputable section

open scoped BigOperators

namespace Cert.ContFilter.Ref

open Cert.ReferenceIdeal Cert.ReferenceIdeal.Read Cert.ContFilter Cert.RowDot Cert.Dense Idealize.ShloMosaic Idealize.ShloMosaic.ValueIdx

/-! ### The filter stage -/

/-- The first product's left index at (p, q) and position k is (p, k). -/
theorem lidx12 (p : Fin 800000) (q : Fin 128) (k : Fin 50) : lidx_main_v12 (ix2 p q) k = ix2 p k :=
  funext fun a => Fin.ext (by match a with | ⟨0, _⟩ => rfl | ⟨1, _⟩ => rfl)

/-- The first product's right index at (p, q) and position k is (k, q). -/
theorem ridx12 (p : Fin 800000) (q : Fin 128) (k : Fin 50) : ridx_main_v12 (ix2 p q) k = ix2 k q :=
  funext fun a => Fin.ext (by match a with | ⟨0, _⟩ => rfl | ⟨1, _⟩ => rfl)

/-- A bias spread over 800000 rows reads, at (p, q), the bias at q. -/
theorem bidx14 (p : Fin 800000) (q : Fin 128) : idx_main_v13 (idx_main_v14 (ix2 p q)) = ix1 q :=
  funext fun a => Fin.ext (by match a with | ⟨0, _⟩ => rfl)

/-- The first dense layer at (p, q): attribute row p through the layer, at q. -/
theorem v15_at (x3 : (⟨S800000x50, .f32⟩ : BufTy).Contents (Elt Ideal)) (x4 : (⟨S128x50, .f32⟩ : BufTy).Contents (Elt Ideal))
    (x5 : (⟨S128, .f32⟩ : BufTy).Contents (Elt Ideal)) (p : Fin 800000) (q : Fin 128) :
    val_main_v15 (F := Ideal) x3 x4 x5 (ix2 p q) = dense (val_main_v11 (F := Ideal) x4) (biasVec x5) (rowOf x3 p) q := by
  rw [val_main_v15_apply, val_main_v12_apply, val_main_v14_apply, val_main_v13_apply, bidx14]
  simp only [lidx12, ridx12]
  rfl

/-- The shifted softplus of the first layer, entry by entry. -/
theorem v18_at (x3 : (⟨S800000x50, .f32⟩ : BufTy).Contents (Elt Ideal)) (x4 : (⟨S128x50, .f32⟩ : BufTy).Contents (Elt Ideal))
    (x5 : (⟨S128, .f32⟩ : BufTy).Contents (Elt Ideal)) (i : S800000x128.Idx) :
    val_main_v18 (F := Ideal) x3 x4 x5 i = ssp (val_main_v15 (F := Ideal) x3 x4 x5 i) := by
  rw [val_main_v18_apply, val_main_v16_apply, val_main_call0_v4_apply, val_main_call0_v6_apply, val_main_call0_v11_apply,
    val_main_call0_v1_apply, val_main_call0_v10_apply, val_main_call0_v9_apply, val_main_call0_v8_apply, val_main_call0_v7_apply,
    val_main_call0_v3_apply, val_main_call0_v0_apply, val_main_call0_v2_apply, val_main_call0_v5_apply, val_main_v17_apply]
  generalize val_main_v15 (F := Ideal) x3 x4 x5 i = t
  exact ssp_neg_form t

/-- The second product's left index at (p, q) and position k is (p, k). -/
theorem lidx20 (p : Fin 800000) (q : Fin 128) (k : Fin 128) : lidx_main_v20 (ix2 p q) k = ix2 p k :=
  funext fun a => Fin.ext (by match a with | ⟨0, _⟩ => rfl | ⟨1, _⟩ => rfl)

/-- The second product's right index at (p, q) and position k is (k, q). -/
theorem ridx20 (p : Fin 800000) (q : Fin 128) (k : Fin 128) : ridx_main_v20 (ix2 p q) k = ix2 k q :=
  funext fun a => Fin.ext (by match a with | ⟨0, _⟩ => rfl | ⟨1, _⟩ => rfl)

/-- The second bias spread over 800000 rows reads, at (p, q), the bias at q. -/
theorem bidx22 (p : Fin 800000) (q : Fin 128) : idx_main_v21 (idx_main_v22 (ix2 p q)) = ix1 q :=
  funext fun a => Fin.ext (by match a with | ⟨0, _⟩ => rfl)

/-- The second dense layer at (p, q): the shifted softplus of the first layer's row p, through the layer, at q. -/
theorem v23_at (x3 : (⟨S800000x50, .f32⟩ : BufTy).Contents (Elt Ideal)) (x4 : (⟨S128x50, .f32⟩ : BufTy).Contents (Elt Ideal))
    (x5 : (⟨S128, .f32⟩ : BufTy).Contents (Elt Ideal)) (x6 : (⟨S128x128, .f32⟩ : BufTy).Contents (Elt Ideal))
    (x7 : (⟨S128, .f32⟩ : BufTy).Contents (Elt Ideal)) (p : Fin 800000) (q : Fin 128) :
    val_main_v23 (F := Ideal) x3 x4 x5 x6 x7 (ix2 p q)
      = dense (val_main_v19 (F := Ideal) x6) (biasVec x7)
          (fun k => ssp (dense (val_main_v11 (F := Ideal) x4) (biasVec x5) (rowOf x3 p) k)) q := by
  rw [val_main_v23_apply, val_main_v20_apply, val_main_v22_apply, val_main_v21_apply, bidx22]
  simp only [lidx20, ridx20, v18_at, v15_at]
  rfl

/-- The distance column spread over 128 columns reads, at (p, q), the distance entry p. -/
theorem cidx25 (p : Fin 800000) (q : Fin 128) : idx_main_v24 (idx_main_v25 (ix2 p q)) = ix1 p :=
  funext fun a => Fin.ext (by match a with | ⟨0, _⟩ => rfl)

/-- The cutoff column at (p, q): the cosine cutoff of distance p. -/
theorem v25_at (x2 : (⟨S800000, .f32⟩ : BufTy).Contents (Elt Ideal)) (p : Fin 800000) (q : Fin 128) :
    val_main_v25 (F := Ideal) x2 (ix2 p q) = cutoff (x2 (ix1 p)) := by
  rw [val_main_v25_apply, val_main_v24_apply, cidx25, val_main_v10_apply, val_main_v9_apply, val_main_v8_apply,
    val_main_v6_apply, val_main_v7_apply, val_main_v5_apply, val_main_v4_apply]
  rfl

/-- The reference's filter stage is the specification's, over the transposed weights. -/
theorem ref_filter (x2 : (⟨S800000, .f32⟩ : BufTy).Contents (Elt Ideal)) (x3 : (⟨S800000x50, .f32⟩ : BufTy).Contents (Elt Ideal))
    (x4 : (⟨S128x50, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal)) :
    val_main_v26 (F := Ideal) x2 x3 x4 x5 x6 x7
      = filterRows (val_main_v11 (F := Ideal) x4) (biasVec x5) (val_main_v19 (F := Ideal) x6) (biasVec x7) x3
          (fun e : Fin 800000 => x2 (ix1 e)) := by
  funext i
  obtain ⟨p, q, rfl⟩ : ∃ (p : Fin 800000) (q : Fin 128), i = ix2 p q := ⟨i 0, i 1, eq_ix2 i⟩
  rw [val_main_v26_apply, v23_at, v25_at]
  rfl

/-! ### The projection stage -/

/-- The projection's left index at (p, q) and position k is (p, k). -/
theorem lidx28 (p : Fin 50000) (q : Fin 128) (k : Fin 128) : lidx_main_v28 (ix2 p q) k = ix2 p k :=
  funext fun a => Fin.ext (by match a with | ⟨0, _⟩ => rfl | ⟨1, _⟩ => rfl)

/-- The projection's right index at (p, q) and position k is (k, q). -/
theorem ridx28 (p : Fin 50000) (q : Fin 128) (k : Fin 128) : ridx_main_v28 (ix2 p q) k = ix2 k q :=
  funext fun a => Fin.ext (by match a with | ⟨0, _⟩ => rfl | ⟨1, _⟩ => rfl)

/-- The reference's projection stage is the specification's plain product, over the transposed weight. -/
theorem ref_project (x0 : (⟨S50000x128, .f32⟩ : BufTy).Contents (Elt Ideal)) (x8 : (⟨S128x128, .f32⟩ : BufTy).Contents (Elt Ideal)) :
    val_main_v28 (F := Ideal) x0 x8 = plainRows (val_main_v27 (F := Ideal) x8) x0 := by
  funext i
  obtain ⟨p, q, rfl⟩ : ∃ (p : Fin 50000) (q : Fin 128), i = ix2 p q := ⟨i 0, i 1, eq_ix2 i⟩
  rw [val_main_v28_apply]
  simp only [lidx28, ridx28]
  rfl

/-! ### The output stage -/

/-- The output product's left index at (p, q) and position k is (p, k). -/
theorem lidx41 (p : Fin 50000) (q : Fin 128) (k : Fin 128) : lidx_main_v41 (ix2 p q) k = ix2 p k :=
  funext fun a => Fin.ext (by match a with | ⟨0, _⟩ => rfl | ⟨1, _⟩ => rfl)

/-- The output product's right index at (p, q) and position k is (k, q). -/
theorem ridx41 (p : Fin 50000) (q : Fin 128) (k : Fin 128) : ridx_main_v41 (ix2 p q) k = ix2 k q :=
  funext fun a => Fin.ext (by match a with | ⟨0, _⟩ => rfl | ⟨1, _⟩ => rfl)

/-- The output bias spread over 50000 rows reads, at (p, q), the bias at q. -/
theorem bidx43 (p : Fin 50000) (q : Fin 128) : idx_main_v42 (idx_main_v43 (ix2 p q)) = ix1 q :=
  funext fun a => Fin.ext (by match a with | ⟨0, _⟩ => rfl)

/-- The output dense layer at (p, q): row p of the aggregated messages through the layer, at q. -/
theorem v44_at (x0 : (⟨S50000x128, .f32⟩ : BufTy).Contents (Elt Ideal)) (x1 : (⟨S2x800000, .i32⟩ : BufTy).Contents (Elt Ideal))
    (x2 : (⟨S800000, .f32⟩ : BufTy).Contents (Elt Ideal)) (x3 : (⟨S800000x50, .f32⟩ : BufTy).Contents (Elt Ideal))
    (x4 : (⟨S128x50, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (x8 x9 : (⟨S128x128, .f32⟩ : BufTy).Contents (Elt Ideal)) (x10 : (⟨S128, .f32⟩ : BufTy).Contents (Elt Ideal))
    (p : Fin 50000) (q : Fin 128) :
    val_main_v44 (F := Ideal) x0 x1 x2 x3 x4 x5 x6 x7 x8 x9 x10 (ix2 p q)
      = dense (val_main_v40 (F := Ideal) x9) (biasVec x10)
          (rowOf (val_main_v39 (F := Ideal) x0 x1 x2 x3 x4 x5 x6 x7 x8) p) q := by
  rw [val_main_v44_apply, val_main_v41_apply, val_main_v43_apply, val_main_v42_apply, bidx43]
  simp only [lidx41, ridx41]
  rfl

/-- The shifted softplus of the output layer, entry by entry. -/
theorem v47_at (x0 : (⟨S50000x128, .f32⟩ : BufTy).Contents (Elt Ideal)) (x1 : (⟨S2x800000, .i32⟩ : BufTy).Contents (Elt Ideal))
    (x2 : (⟨S800000, .f32⟩ : BufTy).Contents (Elt Ideal)) (x3 : (⟨S800000x50, .f32⟩ : BufTy).Contents (Elt Ideal))
    (x4 : (⟨S128x50, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (x8 x9 : (⟨S128x128, .f32⟩ : BufTy).Contents (Elt Ideal)) (x10 : (⟨S128, .f32⟩ : BufTy).Contents (Elt Ideal))
    (i : S50000x128.Idx) :
    val_main_v47 (F := Ideal) x0 x1 x2 x3 x4 x5 x6 x7 x8 x9 x10 i
      = ssp (val_main_v44 (F := Ideal) x0 x1 x2 x3 x4 x5 x6 x7 x8 x9 x10 i) := by
  rw [val_main_v47_apply, val_main_v45_apply, val_main_call1_v4_apply, val_main_call1_v6_apply, val_main_call1_v11_apply,
    val_main_call1_v1_apply, val_main_call1_v10_apply, val_main_call1_v9_apply, val_main_call1_v8_apply, val_main_call1_v7_apply,
    val_main_call1_v3_apply, val_main_call1_v0_apply, val_main_call1_v2_apply, val_main_call1_v5_apply, val_main_v46_apply]
  generalize val_main_v44 (F := Ideal) x0 x1 x2 x3 x4 x5 x6 x7 x8 x9 x10 i = t
  exact ssp_neg_form t

/-- The reference's output stage is the specification's, over the transposed weight and the aggregated messages. -/
theorem ref_output (x0 : (⟨S50000x128, .f32⟩ : BufTy).Contents (Elt Ideal)) (x1 : (⟨S2x800000, .i32⟩ : BufTy).Contents (Elt Ideal))
    (x2 : (⟨S800000, .f32⟩ : BufTy).Contents (Elt Ideal)) (x3 : (⟨S800000x50, .f32⟩ : BufTy).Contents (Elt Ideal))
    (x4 : (⟨S128x50, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (x8 x9 : (⟨S128x128, .f32⟩ : BufTy).Contents (Elt Ideal)) (x10 : (⟨S128, .f32⟩ : BufTy).Contents (Elt Ideal)) :
    val_main_v47 (F := Ideal) x0 x1 x2 x3 x4 x5 x6 x7 x8 x9 x10
      = sspRows (val_main_v40 (F := Ideal) x9) (biasVec x10) (val_main_v39 (F := Ideal) x0 x1 x2 x3 x4 x5 x6 x7 x8) := by
  funext i
  obtain ⟨p, q, rfl⟩ : ∃ (p : Fin 50000) (q : Fin 128), i = ix2 p q := ⟨i 0, i 1, eq_ix2 i⟩
  rw [v47_at, v44_at]
  rfl

/-! ### The whole layer -/

/-- The reference's output with its three dense stages replaced by the specification's: the gather of the projected
    node rows, the product with the filter rows, the scatter-add and the index arrays are the program's own
    operations, kept as they are. -/
theorem ref_layer (x0 : (⟨S50000x128, .f32⟩ : BufTy).Contents (Elt Ideal)) (x1 : (⟨S2x800000, .i32⟩ : BufTy).Contents (Elt Ideal))
    (x2 : (⟨S800000, .f32⟩ : BufTy).Contents (Elt Ideal)) (x3 : (⟨S800000x50, .f32⟩ : BufTy).Contents (Elt Ideal))
    (x4 : (⟨S128x50, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (x8 x9 : (⟨S128x128, .f32⟩ : BufTy).Contents (Elt Ideal)) (x10 : (⟨S128, .f32⟩ : BufTy).Contents (Elt Ideal)) :
    val_main_v47 (F := Ideal) x0 x1 x2 x3 x4 x5 x6 x7 x8 x9 x10
      = sspRows (val_main_v40 (F := Ideal) x9) (biasVec x10)
          (Host.scatterAdd (F := Ideal) (φ := .f32) scatter_S50000x128_S800000x1_S800000x128_1_0_0_1 (val_main_v37 (F := Ideal)) (val_main_v38 (F := Ideal) x1)
            (mulf (F := Ideal) (φ := .f32) (Host.gather gather_S50000x128_S800000x1_S800000x128_1_0_n_n_0_1_1128 (plainRows (val_main_v27 (F := Ideal) x8) x0) (val_main_v34 (F := Ideal) x1))
              (filterRows (val_main_v11 (F := Ideal) x4) (biasVec x5) (val_main_v19 (F := Ideal) x6) (biasVec x7) x3 (fun e : Fin 800000 => x2 (ix1 e))))) := by
  rw [ref_output]
  unfold val_main_v39 val_main_v36 val_main_v35
  rw [ref_filter, ref_project]

end Cert.ContFilter.Ref

end
-- ==== Proof.lean ====
/-
  A continuous-filter convolution layer on a graph of 50000 nodes and 800000 edges: a kernel program of three
  pipelined regions among host operations, against a reference computed whole on the host.

  Both programs compute, at the exact (extended-real) values,

    out(n, ·) = ssp( ( Σ_{e : dst e = n} xh(src e, ·) · W(e, ·) ) · L₂ + c ),
    xh = x · L₁,   W(e, ·) = ( ssp(attr(e) · W₁ + b₁) · W₂ + b₂ ) · ½ (cos(d(e) · π/10) + 1),

  ssp the shifted softplus.  The kernel computes W in blocks of 6400 edges and xh and out in blocks of 5000 nodes,
  each product as a matrix product into a zero accumulator on operands whose float format was narrowed first; the
  reference computes each product whole.  At the exact values a change of format keeps every number and both
  products are the same sum, a block of rows of a row-wise function is the function of those rows, adding the zero
  bias the kernel gives the projection changes nothing, and the two spellings of the softplus agree since
  0 − a = −a.  The gather, the product of the messages and the scatter-add are the same host operations in both
  programs, applied to equal arrays.  No law used needs the inputs finite.

  The three frames are the generated ones (the reference's is its run with the result dropped); the idealization
  rewrote nothing, so there is nothing to preserve.
-/
import proofs.«139407_j51788715655492_1_alg».proof.Defs
import proofs.«139407_j51788715655492_1_alg».proof.Proof.Gen.Kernel
import proofs.«139407_j51788715655492_1_alg».proof.Proof.Gen.Kernel.Skeleton
import proofs.«139407_j51788715655492_1_alg».proof.Proof.Gen.Kernel.Launch
import proofs.«139407_j51788715655492_1_alg».proof.Proof.Gen.Kernel.Points
import proofs.«139407_j51788715655492_1_alg».proof.Proof.Gen.Kernel.Frame
import proofs.«139407_j51788715655492_1_alg».proof.Proof.Gen.KernelIdeal
import proofs.«139407_j51788715655492_1_alg».proof.Proof.Gen.KernelIdeal.Skeleton
import proofs.«139407_j51788715655492_1_alg».proof.Proof.Gen.KernelIdeal.Launch
import proofs.«139407_j51788715655492_1_alg».proof.Proof.Gen.KernelIdeal.Points
import proofs.«139407_j51788715655492_1_alg».proof.Proof.Gen.KernelIdeal.Frame
import proofs.«139407_j51788715655492_1_alg».proof.Proof.Gen.ReferenceIdeal
import proofs.«139407_j51788715655492_1_alg».proof.Proof.Gen.Pre_finite_inputs
import proofs.«139407_j51788715655492_1_alg».proof.Proof.Gen.ReferenceIdeal.Run
import proofs.«139407_j51788715655492_1_alg».proof.Proof.Gen.ReferenceIdeal.Read
import proofs.«139407_j51788715655492_1_alg».proof.Proof.KernelRun
import proofs.«139407_j51788715655492_1_alg».proof.Proof.Fold
import proofs.«139407_j51788715655492_1_alg».proof.Proof.RefStages
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The reference's result is the kernel's layer function of the same arguments: the reference's three dense stages
    are the specification's, and its transposes, bias and index lines and its gather, product and scatter-add are the
    kernel program's own host operations, term for term. -/
theorem reference_result (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    Cert.ReferenceIdeal.Value.res_main_v47 m' c = Cert.KernelIdeal.Fold.layerOf m c := by
  rw [Cert.ReferenceIdeal.Read.val_main_v47_eq, Cert.ContFilter.Ref.ref_layer, h0, h1, h2, h3, h4, h5, h6, h7, h8, h9, h10]
  rfl

theorem algebraic : Cert.algebraic_KernelIdeal_ReferenceIdeal := by
  intro m ρ m' ρ' _ hagree
  refine ⟨fun c => Cert.KernelIdeal.Fold.layerOf m c, ?_, ?_⟩
  · exact (θ_run Cert.KernelIdeal.defs _ _).mono
      (fun r h c => ⟨(h c).1.trans (Cert.KernelIdeal.Fold.result_eq m ρ c), (h c).2⟩)
      (Cert.KernelIdeal.Run.run_result m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10⟩ := hagree c
    exact reference_result m m' c h0 h1 h2 h3 h4 h5 h6 h7 h8 h9 h10

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
